-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v97)) (v1 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_v98) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3200000 : Shape := ⟨2, ![2, 3200000]⟩
abbrev S100000x768 : Shape := ⟨2, ![100000, 768]⟩
abbrev S100000x64 : Shape := ⟨2, ![100000, 64]⟩
abbrev S64x768 : Shape := ⟨2, ![64, 768]⟩
abbrev S64 : Shape := ⟨1, ![64]⟩
abbrev S3x64x64 : Shape := ⟨3, ![3, 64, 64]⟩
abbrev S3x64 : Shape := ⟨2, ![3, 64]⟩
abbrev S_ : Shape := ⟨0, ![]⟩

class Facts : Prop where
  bcast_S_S100000x768 : S_.BroadcastsInDim S100000x768 (![] : Fin 0 → Fin S100000x768.rank)
  reducesTo_S100000x768_S_d0_1 : S100000x768.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x768 : S_.BroadcastsInDim S64x768 (![] : Fin 0 → Fin S64x768.rank)
  reducesTo_S64x768_S_d0_1 : S64x768.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg5 : FVec F S64 .f32) (main_arg6 : FVec F S3x64x64 .f32) (main_arg7 : FVec F S3x64 .f32) (main_v13 : IVec S_ 1) (main_v16 : IVec S64x768 1) : IVec S_ 1 :=
  let main_c_5 : IVec S_ 1 := constantI S_ 1 1#1
  let main_v17 : IVec S_ 1 := (fun x v => Host.reduce IntOp.andi x v reducesTo_S64x768_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3x64x64 .f32 := Host.absf main_arg6
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg7
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  main_v33

def fn {F : FTy → Type} [FloatOps F] (main_arg0 : IVec S2x3200000 32) (main_arg1 : FVec F S100000x768 .f32) (main_arg2 : FVec F S100000x64 .f32) (main_arg3 : FVec F S100000x64 .f32) (main_arg4 : FVec F S64x768 .f32) (main_arg5 : FVec F S64 .f32) (main_arg6 : FVec F S3x64x64 .f32) (main_arg7 : FVec F S3x64 .f32) : IVec S_ 1 :=
  let main_v0 : FVec F S100000x768 .f32 := Host.absf main_arg1
  let main_cst : FVec F S_ .f32 := constant S_ .f32 0x7F800000#32
  let main_v1 : FVec F S100000x768 .f32 := broadcastInDim S100000x768 ![] bcast_S_S100000x768 main_cst
  let main_v2 : IVec S100000x768 1 := cmpf .olt main_v0 main_v1
  let main_c : IVec S_ 1 := constantI S_ 1 1#1
  let main_v3 : IVec S_ 1 := (fun x v => Host.reduce IntOp.andi x v reducesTo_S100000x768_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000x64 .f32 := Host.absf main_arg3
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S64x768 .f32 := Host.absf main_arg4
  let main_cst_4 : FVec F S_ .f32 := constant S_ .f32 0x7F800000#32
  let main_v15 : FVec F S64x768 .f32 := broadcastInDim S64x768 ![] bcast_S_S64x768 main_cst_4
  let main_v16 : IVec S64x768 1 := cmpf .olt main_v14 main_v15
  fn_part1 (F := F) main_arg5 main_arg6 main_arg7 main_v13 main_v16
-- ==== Kernel.lean ====
abbrev S2x3200000 : Shape := ⟨2, ![2, 3200000]⟩
abbrev S100000x768 : Shape := ⟨2, ![100000, 768]⟩
abbrev S100000x64 : Shape := ⟨2, ![100000, 64]⟩
abbrev S64x768 : Shape := ⟨2, ![64, 768]⟩
abbrev S64 : Shape := ⟨1, ![64]⟩
abbrev S3x64x64 : Shape := ⟨3, ![3, 64, 64]⟩
abbrev S3x64 : Shape := ⟨2, ![3, 64]⟩
abbrev S768x64 : Shape := ⟨2, ![768, 64]⟩
abbrev S1x64 : Shape := ⟨2, ![1, 64]⟩
abbrev S2000x768 : Shape := ⟨2, ![2000, 768]⟩
abbrev S2000x64 : Shape := ⟨2, ![2000, 64]⟩
abbrev S200000x64 : Shape := ⟨2, ![200000, 64]⟩
abbrev S1x3200000 : Shape := ⟨2, ![1, 3200000]⟩
abbrev S3200000 : Shape := ⟨1, ![3200000]⟩
abbrev S_ : Shape := ⟨0, ![]⟩
abbrev S200000 : Shape := ⟨1, ![200000]⟩
abbrev S3200000x1 : Shape := ⟨2, ![3200000, 1]⟩
abbrev S1x64x64 : Shape := ⟨3, ![1, 64, 64]⟩
abbrev S64x64 : Shape := ⟨2, ![64, 64]⟩
abbrev S10000x64 : Shape := ⟨2, ![10000, 64]⟩
abbrev S3200000x64 : Shape := ⟨2, ![3200000, 64]⟩

abbrev nBuf : Space → Nat
  | .hbm => 135
  | .vmem => 50
  | .smem => 0
  | _ => 0

abbrev hbmTy0_0 (i : Nat) : BufTy := match i % 128 with
  | 0 => ⟨S2x3200000, .i32⟩
  | 1 => ⟨S100000x768, .f32⟩
  | 2 => ⟨S100000x64, .f32⟩
  | 3 => ⟨S100000x64, .f32⟩
  | 4 => ⟨S64x768, .f32⟩
  | 5 => ⟨S64, .f32⟩
  | 6 => ⟨S3x64x64, .f32⟩
  | 7 => ⟨S3x64, .f32⟩
  | 8 => ⟨S768x64, .f32⟩
  | 9 => ⟨S1x64, .f32⟩
  | 10 => ⟨S100000x64, .f32⟩
  | 11 => ⟨S200000x64, .f32⟩
  | 12 => ⟨S1x3200000, .i32⟩
  | 13 => ⟨S3200000, .i32⟩
  | 14 => ⟨S1x3200000, .i32⟩
  | 15 => ⟨S3200000, .i32⟩
  | 16 => ⟨S_, .f32⟩
  | 17 => ⟨S3200000, .f32⟩
  | 18 => ⟨S_, .f32⟩
  | 19 => ⟨S200000, .f32⟩
  | 20 => ⟨S3200000x1, .i32⟩
  | 21 => ⟨S200000, .f32⟩
  | 22 => ⟨S_, .f32⟩
  | 23 => ⟨S200000, .f32⟩
  | 24 => ⟨S200000, .i1⟩
  | 25 => ⟨S_, .f32⟩
  | 26 => ⟨S_, .f32⟩
  | 27 => ⟨S200000, .f32⟩
  | 28 => ⟨S200000, .f32⟩
  | 29 => ⟨S_, .f32⟩
  | 30 => ⟨S200000, .f32⟩
  | 31 => ⟨S200000, .i1⟩
  | 32 => ⟨S_, .f32⟩
  | 33 => ⟨S200000, .f32⟩
  | 34 => ⟨S200000, .f32⟩
  | 35 => ⟨S_, .f32⟩
  | 36 => ⟨S_, .f32⟩
  | 37 => ⟨S200000, .f32⟩
  | 38 => ⟨S200000, .f32⟩
  | 39 => ⟨S_, .i32⟩
  | 40 => ⟨S3200000, .i32⟩
  | 41 => ⟨S3200000, .i1⟩
  | 42 => ⟨S_, .i32⟩
  | 43 => ⟨S3200000, .i32⟩
  | 44 => ⟨S3200000, .i32⟩
  | 45 => ⟨S3200000, .i32⟩
  | 46 => ⟨S3200000x1, .i32⟩
  | 47 => ⟨S3200000, .f32⟩
  | 48 => ⟨S_, .i32⟩
  | 49 => ⟨S3200000, .i32⟩
  | 50 => ⟨S3200000, .i1⟩
  | 51 => ⟨S_, .i32⟩
  | 52 => ⟨S3200000, .i32⟩
  | 53 => ⟨S3200000, .i32⟩
  | 54 => ⟨S3200000, .i32⟩
  | 55 => ⟨S3200000x1, .i32⟩
  | 56 => ⟨S3200000, .f32⟩
  | 57 => ⟨S3200000, .f32⟩
  | 58 => ⟨S1x64x64, .f32⟩
  | 59 => ⟨S64x64, .f32⟩
  | 60 => ⟨S200000x64, .f32⟩
  | 61 => ⟨S3200000x1, .f32⟩
  | 62 => ⟨S_, .i32⟩
  | 63 => ⟨S3200000, .i32⟩
  | 64 => ⟨S3200000, .i1⟩
  | 65 => ⟨S_, .i32⟩
  | 66 => ⟨S3200000, .i32⟩
  | 67 => ⟨S3200000, .i32⟩
  | 68 => ⟨S3200000, .i32⟩
  | 69 => ⟨S3200000x1, .i32⟩
  | 70 => ⟨S3200000x64, .f32⟩
  | 71 => ⟨S3200000x64, .f32⟩
  | 72 => ⟨S3200000x64, .f32⟩
  | 73 => ⟨S_, .f32⟩
  | 74 => ⟨S200000x64, .f32⟩
  | 75 => ⟨S3200000x1, .i32⟩
  | 76 => ⟨S200000x64, .f32⟩
  | 77 => ⟨S1x64, .f32⟩
  | 78 => ⟨S64, .f32⟩
  | 79 => ⟨S1x64, .f32⟩
  | 80 => ⟨S200000x64, .f32⟩
  | 81 => ⟨S200000x64, .f32⟩
  | 82 => ⟨S1x64x64, .f32⟩
  | 83 => ⟨S64x64, .f32⟩
  | 84 => ⟨S200000x64, .f32⟩
  | 85 => ⟨S3200000x1, .f32⟩
  | 86 => ⟨S_, .i32⟩
  | 87 => ⟨S3200000, .i32⟩
  | 88 => ⟨S3200000, .i1⟩
  | 89 => ⟨S_, .i32⟩
  | 90 => ⟨S3200000, .i32⟩
  | 91 => ⟨S3200000, .i32⟩
  | 92 => ⟨S3200000, .i32⟩
  | 93 => ⟨S3200000x1, .i32⟩
  | 94 => ⟨S3200000x64, .f32⟩
  | 95 => ⟨S3200000x64, .f32⟩
  | 96 => ⟨S3200000x64, .f32⟩
  | 97 => ⟨S_, .f32⟩
  | 98 => ⟨S200000x64, .f32⟩
  | 99 => ⟨S3200000x1, .i32⟩
  | 100 => ⟨S200000x64, .f32⟩
  | 101 => ⟨S1x64, .f32⟩
  | 102 => ⟨S64, .f32⟩
  | 103 => ⟨S1x64, .f32⟩
  | 104 => ⟨S200000x64, .f32⟩
  | 105 => ⟨S200000x64, .f32⟩
  | 106 => ⟨S1x64x64, .f32⟩
  | 107 => ⟨S64x64, .f32⟩
  | 108 => ⟨S200000x64, .f32⟩
  | 109 => ⟨S3200000x1, .f32⟩
  | 110 => ⟨S_, .i32⟩
  | 111 => ⟨S3200000, .i32⟩
  | 112 => ⟨S3200000, .i1⟩
  | 113 => ⟨S_, .i32⟩
  | 114 => ⟨S3200000, .i32⟩
  | 115 => ⟨S3200000, .i32⟩
  | 116 => ⟨S3200000, .i32⟩
  | 117 => ⟨S3200000x1, .i32⟩
  | 118 => ⟨S3200000x64, .f32⟩
  | 119 => ⟨S3200000x64, .f32⟩
  | 120 => ⟨S3200000x64, .f32⟩
  | 121 => ⟨S_, .f32⟩
  | 122 => ⟨S200000x64, .f32⟩
  | 123 => ⟨S3200000x1, .i32⟩
  | 124 => ⟨S200000x64, .f32⟩
  | 125 => ⟨S1x64, .f32⟩
  | 126 => ⟨S64, .f32⟩
  | 127 => ⟨S1x64, .f32⟩
  | _ => ⟨S2x3200000, .i32⟩

abbrev hbmTy0_1 (i : Nat) : BufTy := match i % 128 with
  | 0 => ⟨S200000x64, .f32⟩
  | 1 => ⟨S200000x64, .f32⟩
  | 2 => ⟨S_, .f32⟩
  | 3 => ⟨S200000x64, .f32⟩
  | 4 => ⟨S200000x64, .f32⟩
  | 5 => ⟨S100000x64, .f32⟩
  | 6 => ⟨S100000x64, .f32⟩
  | _ => ⟨S2x3200000, .i32⟩

abbrev hbmTy (i : Nat) : BufTy := match i / 128 with
  | 0 => hbmTy0_0 i
  | 1 => hbmTy0_1 i
  | _ => ⟨S2x3200000, .i32⟩

abbrev bufTy : (tb : Table) → Fin (tcTables nBuf tb) → BufTy
  | .hbm, ⟨i, _⟩ => hbmTy i
  | .local _ .vmem, ⟨0, _⟩ => ⟨S2000x768, .f32⟩
  | .local _ .vmem, ⟨1, _⟩ => ⟨S2000x768, .f32⟩
  | .local _ .vmem, ⟨2, _⟩ => ⟨S768x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S10000x64, .f32⟩
  | .local _ .vmem, ⟨9, _⟩ => ⟨S10000x64, .f32⟩
  | .local _ .vmem, ⟨10, _⟩ => ⟨S64x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S64x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S1x64, .f32⟩
  | .local _ .vmem, ⟨44, _⟩ => ⟨S10000x64, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S10000x64, .f32⟩
  | _, _ => ⟨S2x3200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_call1_v0 : Ref sig .tc := ⟨.hbm, 36, rfl⟩
abbrev main_call1_v1 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_7 : Ref sig .tc := ⟨.hbm, 48, rfl⟩
abbrev main_v27 : Ref sig .tc := ⟨.hbm, 49, rfl⟩
abbrev main_v28 : Ref sig .tc := ⟨.hbm, 50, rfl⟩
abbrev main_c_8 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_c_10 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_11 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54_0 : Ref sig .tc := ⟨.hbm, 80, rfl⟩
abbrev main_v54_1 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74_0 : Ref sig .tc := ⟨.hbm, 104, rfl⟩
abbrev main_v74_1 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_15 : Ref sig .tc := ⟨.hbm, 110, rfl⟩
abbrev main_v79 : Ref sig .tc := ⟨.hbm, 111, rfl⟩
abbrev main_v80 : Ref sig .tc := ⟨.hbm, 112, rfl⟩
abbrev main_c_16 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_17 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94_0 : Ref sig .tc := ⟨.hbm, 128, rfl⟩
abbrev main_v94_1 : Ref sig .tc := ⟨.hbm, 129, rfl⟩
abbrev main_cst_18 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg2_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg2_1 : Ref sig .tc := ⟨.vmem, 45, rfl⟩
abbrev cc6_stg3_0 : Ref sig .tc := ⟨.vmem, 46, rfl⟩
abbrev cc6_stg3_1 : Ref sig .tc := ⟨.vmem, 47, rfl⟩
abbrev cc6_stg4_0 : Ref sig .tc := ⟨.vmem, 48, rfl⟩
abbrev cc6_stg4_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem2_1 : DmaSem sig := 31
abbrev cc4_sem3_0 : DmaSem sig := 32
abbrev cc4_sem3_1 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem2_1 : DmaSem sig := 40
abbrev cc6_sem0_0 : DmaSem sig := 41
abbrev cc6_sem0_1 : DmaSem sig := 42
abbrev cc6_sem1_0 : DmaSem sig := 43
abbrev cc6_sem2_0 : DmaSem sig := 44
abbrev cc6_sem2_1 : DmaSem sig := 45
abbrev cc6_sem3_0 : DmaSem sig := 46
abbrev cc6_sem3_1 : DmaSem sig := 47
abbrev cc6_sem4_0 : DmaSem sig := 48
abbrev cc6_sem4_1 : DmaSem sig := 49

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S10000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S10000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S10000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  transposes_S64x768_S768x64_1_0 : S64x768.Transposes [1, 0] S768x64
  shapeCasts_S64_S1x64 : S64.ShapeCasts S1x64
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x64_S768x64_0_0 : ∀ a, (![0, 0] : Fin 2 → Nat) a + S768x64.size a ≤ S768x64.size a
  h_S768x64 : 0 < S768x64.numel
  shapeCasts_S768x64_S768x64 : S768x64.ShapeCasts S768x64
  inb_S2000x64_S2000x64_0_0 : ∀ a, (![0, 0] : Fin 2 → Nat) a + S2000x64.size a ≤ S2000x64.size a
  h_S2000x64 : 0 < S2000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  concatenates_S100000x64_S100000x64_S200000x64_d0 : Shape.Concatenates [S100000x64, S100000x64] S200000x64 0
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S200000 : S_.BroadcastsInDim S200000 (![] : Fin 0 → Fin S200000.rank)
  bcast_S3200000_S3200000x1_0 : S3200000.BroadcastsInDim S3200000x1 (![0] : Fin 1 → Fin S3200000x1.rank)
  slices_S3x64x64_S1x64x64_0_0_0 : S3x64x64.Slices ![0, 0, 0] S1x64x64
  shapeCasts_S1x64x64_S64x64 : S1x64x64.ShapeCasts S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S3200000x1_S3200000x64_0_1 : S3200000x1.BroadcastsInDim S3200000x64 (![0, 1] : Fin 2 → Fin S3200000x64.rank)
  bcast_S_S200000x64 : S_.BroadcastsInDim S200000x64 (![] : Fin 0 → Fin S200000x64.rank)
  slices_S3x64_S1x64_0_0 : S3x64.Slices ![0, 0] S1x64
  shapeCasts_S1x64_S64 : S1x64.ShapeCasts S64
  broadcasts_S1x64_S10000x64 : S1x64.Broadcasts S10000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  slices_S200000x64_S100000x64_0_0 : S200000x64.Slices ![0, 0] S100000x64
  slices_S200000x64_S100000x64_100000_0 : S200000x64.Slices ![100000, 0] S100000x64
  dot_S2000x768_S768x64_S2000x64_1_0_0_1_n_n_wf : DotDims.WF S2000x768 S768x64 S2000x64 [1] [0] [0] [1] [] []
  scatter_S200000_S3200000x1_S3200000_n_0_0_1_wf : ScatterDims.WF S200000 S3200000x1 S3200000 [] [0] [0] 1
  gather_S200000_S3200000x1_S3200000_n_0_n_n_0_1_1_wf : GatherDims.WF S200000 S3200000x1 S3200000 [] [0] [] [0] [] 1 ![1]
  dot_S10000x64_S64x64_S10000x64_1_0_0_1_n_n_wf : DotDims.WF S10000x64 S64x64 S10000x64 [1] [0] [0] [1] [] []
  gather_S200000x64_S3200000x1_S3200000x64_1_0_n_n_0_1_164_wf : GatherDims.WF S200000x64 S3200000x1 S3200000x64 [1] [0] [] [0] [] 1 ![1, 64]
  scatter_S200000x64_S3200000x1_S3200000x64_1_0_0_1_wf : ScatterDims.WF S200000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S100000x768.size a
  hwx0_0 : ∀ i : grid0.Coords, EltTy.bits .f32 = 32 ∨ (Rect.block (s := S100000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x64.size a ≤ S768x64.size a
  hwx0_1 : ∀ i : grid0.Coords, EltTy.bits .f32 = 32 ∨ (Rect.block (s := S768x64) S768x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S100000x64.size a
  hwx0_4 : ∀ i : grid0.Coords, EltTy.bits .f32 = 32 ∨ (Rect.block (s := S100000x64) S2000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S200000x64.size a
  hwx1_0 : ∀ i : grid1.Coords, EltTy.bits .f32 = 32 ∨ (Rect.block (s := S200000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S200000x64.size a
  hwx1_2 : ∀ i : grid1.Coords, EltTy.bits .f32 = 32 ∨ (Rect.block (s := S200000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S200000x64.size a
  hwx2_0 : ∀ i : grid2.Coords, EltTy.bits .f32 = 32 ∨ (Rect.block (s := S200000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S200000x64.size a
  hwx2_2 : ∀ i : grid2.Coords, EltTy.bits .f32 = 32 ∨ (Rect.block (s := S200000x64) S10000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S200000x64.size a
  hwx2_3 : ∀ i : grid2.Coords, EltTy.bits .f32 = 32 ∨ (Rect.block (s := S200000x64) S10000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S200000x64.size a
  hwx2_4 : ∀ i : grid2.Coords, EltTy.bits .f32 = 32 ∨ (Rect.block (s := S200000x64) S10000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S200000x64.size a
  hwx3_0 : ∀ i : grid3.Coords, EltTy.bits .f32 = 32 ∨ (Rect.block (s := S200000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S200000x64.size a
  hwx3_2 : ∀ i : grid3.Coords, EltTy.bits .f32 = 32 ∨ (Rect.block (s := S200000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S200000x64.size a
  hwx4_0 : ∀ i : grid4.Coords, EltTy.bits .f32 = 32 ∨ (Rect.block (s := S200000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S200000x64.size a
  hwx4_2 : ∀ i : grid4.Coords, EltTy.bits .f32 = 32 ∨ (Rect.block (s := S200000x64) S10000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S200000x64.size a
  hwx4_3 : ∀ i : grid4.Coords, EltTy.bits .f32 = 32 ∨ (Rect.block (s := S200000x64) S10000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x64.size a ≤ S200000x64.size a
  hwx4_4 : ∀ i : grid4.Coords, EltTy.bits .f32 = 32 ∨ (Rect.block (s := S200000x64) S10000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S200000x64.size a
  hwx5_0 : ∀ i : grid5.Coords, EltTy.bits .f32 = 32 ∨ (Rect.block (s := S200000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S200000x64.size a
  hwx5_2 : ∀ i : grid5.Coords, EltTy.bits .f32 = 32 ∨ (Rect.block (s := S200000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S200000x64.size a
  hwx6_0 : ∀ i : grid6.Coords, EltTy.bits .f32 = 32 ∨ (Rect.block (s := S200000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S200000x64.size a
  hwx6_2 : ∀ i : grid6.Coords, EltTy.bits .f32 = 32 ∨ (Rect.block (s := S200000x64) S10000x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x64.size a ≤ S200000x64.size a
  hwx6_3 : ∀ i : grid6.Coords, EltTy.bits .f32 = 32 ∨ (Rect.block (s := S200000x64) S10000x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S10000x64.size a ≤ S200000x64.size a
  hwx6_4 : ∀ i : grid6.Coords, EltTy.bits .f32 = 32 ∨ (Rect.block (s := S200000x64) S10000x64.size (cc6_transform_4 i) (hinb6_4 i)).WholeWords (EltTy.packing .f32)

variable [Facts₀]

def dot_S2000x768_S768x64_S2000x64_1_0_0_1_n_n : DotDims S2000x768 S768x64 S2000x64 where
  lhsContracting := [1]
  rhsContracting := [0]
  lhsNonContracting := [0]
  rhsNonContracting := [1]
  lhsBatch := []
  rhsBatch := []
  wf := dot_S2000x768_S768x64_S2000x64_1_0_0_1_n_n_wf
def scatter_S200000_S3200000x1_S3200000_n_0_0_1 : ScatterDims S200000 S3200000x1 S3200000 where
  updateWindowDims := []
  insertedWindowDims := [0]
  scatterDimsToOperandDims := [0]
  indexVectorDim := 1
  wf := scatter_S200000_S3200000x1_S3200000_n_0_0_1_wf
def gather_S200000_S3200000x1_S3200000_n_0_n_n_0_1_1 : GatherDims S200000 S3200000x1 S3200000 where
  offsetDims := []
  collapsedSliceDims := [0]
  operandBatchingDims := []
  startIndicesBatchingDims := []
  startIndexMap := [0]
  indexVectorDim := 1
  sliceSizes := ![1]
  wf := gather_S200000_S3200000x1_S3200000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S200000x64_S3200000x1_S3200000x64_1_0_n_n_0_1_164 : GatherDims S200000x64 S3200000x1 S3200000x64 where
  offsetDims := [1]
  collapsedSliceDims := [0]
  operandBatchingDims := []
  startIndicesBatchingDims := []
  startIndexMap := [0]
  indexVectorDim := 1
  sliceSizes := ![1, 64]
  wf := gather_S200000x64_S3200000x1_S3200000x64_1_0_n_n_0_1_164_wf
def scatter_S200000x64_S3200000x1_S3200000x64_1_0_0_1 : ScatterDims S200000x64 S3200000x1 S3200000x64 where
  updateWindowDims := [1]
  insertedWindowDims := [0]
  scatterDimsToOperandDims := [0]
  indexVectorDim := 1
  wf := scatter_S200000x64_S3200000x1_S3200000x64_1_0_0_1_wf

abbrev win0_0 : Pipeline.Window sig grid0 :=
  Pipeline.Window.ofSpec (Memref.whole main_arg1) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S768x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S10000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v54_0) S10000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v54_1) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v54_0) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v70) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v54_1) S10000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v74_0) S10000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v74_1) S10000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v74_0) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v90) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v93) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v74_1) S10000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v94_0) S10000x64.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v94_1) S10000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S2x3200000 : Shape := ⟨2, ![2, 3200000]⟩
abbrev S100000x768 : Shape := ⟨2, ![100000, 768]⟩
abbrev S100000x64 : Shape := ⟨2, ![100000, 64]⟩
abbrev S64x768 : Shape := ⟨2, ![64, 768]⟩
abbrev S64 : Shape := ⟨1, ![64]⟩
abbrev S3x64x64 : Shape := ⟨3, ![3, 64, 64]⟩
abbrev S3x64 : Shape := ⟨2, ![3, 64]⟩
abbrev S768x64 : Shape := ⟨2, ![768, 64]⟩
abbrev S1x64 : Shape := ⟨2, ![1, 64]⟩
abbrev S200000x64 : Shape := ⟨2, ![200000, 64]⟩
abbrev S1x3200000 : Shape := ⟨2, ![1, 3200000]⟩
abbrev S3200000 : Shape := ⟨1, ![3200000]⟩
abbrev S_ : Shape := ⟨0, ![]⟩
abbrev S200000 : Shape := ⟨1, ![200000]⟩
abbrev S3200000x1 : Shape := ⟨2, ![3200000, 1]⟩
abbrev S1x64x64 : Shape := ⟨3, ![1, 64, 64]⟩
abbrev S64x64 : Shape := ⟨2, ![64, 64]⟩
abbrev S3200000x64 : Shape := ⟨2, ![3200000, 64]⟩

abbrev nBuf : Space → Nat
  | .hbm => 134
  | .vmem => 0
  | .smem => 0
  | _ => 0

abbrev hbmTy0_0 (i : Nat) : BufTy := match i % 128 with
  | 0 => ⟨S2x3200000, .i32⟩
  | 1 => ⟨S100000x768, .f32⟩
  | 2 => ⟨S100000x64, .f32⟩
  | 3 => ⟨S100000x64, .f32⟩
  | 4 => ⟨S64x768, .f32⟩
  | 5 => ⟨S64, .f32⟩
  | 6 => ⟨S3x64x64, .f32⟩
  | 7 => ⟨S3x64, .f32⟩
  | 8 => ⟨S768x64, .f32⟩
  | 9 => ⟨S100000x64, .f32⟩
  | 10 => ⟨S100000x64, .f32⟩
  | 11 => ⟨S1x64, .f32⟩
  | 12 => ⟨S100000x64, .f32⟩
  | 13 => ⟨S100000x64, .f32⟩
  | 14 => ⟨S200000x64, .f32⟩
  | 15 => ⟨S1x3200000, .i32⟩
  | 16 => ⟨S3200000, .i32⟩
  | 17 => ⟨S1x3200000, .i32⟩
  | 18 => ⟨S3200000, .i32⟩
  | 19 => ⟨S_, .f32⟩
  | 20 => ⟨S3200000, .f32⟩
  | 21 => ⟨S_, .f32⟩
  | 22 => ⟨S200000, .f32⟩
  | 23 => ⟨S3200000x1, .i32⟩
  | 24 => ⟨S200000, .f32⟩
  | 25 => ⟨S_, .f32⟩
  | 26 => ⟨S200000, .f32⟩
  | 27 => ⟨S200000, .i1⟩
  | 28 => ⟨S_, .f32⟩
  | 29 => ⟨S200000, .f32⟩
  | 30 => ⟨S200000, .f32⟩
  | 31 => ⟨S_, .f32⟩
  | 32 => ⟨S_, .f32⟩
  | 33 => ⟨S200000, .f32⟩
  | 34 => ⟨S200000, .f32⟩
  | 35 => ⟨S_, .i32⟩
  | 36 => ⟨S3200000, .i32⟩
  | 37 => ⟨S3200000, .i1⟩
  | 38 => ⟨S_, .i32⟩
  | 39 => ⟨S3200000, .i32⟩
  | 40 => ⟨S3200000, .i32⟩
  | 41 => ⟨S3200000, .i32⟩
  | 42 => ⟨S3200000x1, .i32⟩
  | 43 => ⟨S3200000, .f32⟩
  | 44 => ⟨S_, .i32⟩
  | 45 => ⟨S3200000, .i32⟩
  | 46 => ⟨S3200000, .i1⟩
  | 47 => ⟨S_, .i32⟩
  | 48 => ⟨S3200000, .i32⟩
  | 49 => ⟨S3200000, .i32⟩
  | 50 => ⟨S3200000, .i32⟩
  | 51 => ⟨S3200000x1, .i32⟩
  | 52 => ⟨S3200000, .f32⟩
  | 53 => ⟨S3200000, .f32⟩
  | 54 => ⟨S1x64x64, .f32⟩
  | 55 => ⟨S64x64, .f32⟩
  | 56 => ⟨S200000x64, .f32⟩
  | 57 => ⟨S3200000x1, .f32⟩
  | 58 => ⟨S_, .i32⟩
  | 59 => ⟨S3200000, .i32⟩
  | 60 => ⟨S3200000, .i1⟩
  | 61 => ⟨S_, .i32⟩
  | 62 => ⟨S3200000, .i32⟩
  | 63 => ⟨S3200000, .i32⟩
  | 64 => ⟨S3200000, .i32⟩
  | 65 => ⟨S3200000x1, .i32⟩
  | 66 => ⟨S3200000x64, .f32⟩
  | 67 => ⟨S3200000x64, .f32⟩
  | 68 => ⟨S3200000x64, .f32⟩
  | 69 => ⟨S_, .f32⟩
  | 70 => ⟨S200000x64, .f32⟩
  | 71 => ⟨S3200000x1, .i32⟩
  | 72 => ⟨S200000x64, .f32⟩
  | 73 => ⟨S1x64, .f32⟩
  | 74 => ⟨S64, .f32⟩
  | 75 => ⟨S1x64, .f32⟩
  | 76 => ⟨S200000x64, .f32⟩
  | 77 => ⟨S200000x64, .f32⟩
  | 78 => ⟨S200000x64, .f32⟩
  | 79 => ⟨S1x64x64, .f32⟩
  | 80 => ⟨S64x64, .f32⟩
  | 81 => ⟨S200000x64, .f32⟩
  | 82 => ⟨S3200000x1, .f32⟩
  | 83 => ⟨S_, .i32⟩
  | 84 => ⟨S3200000, .i32⟩
  | 85 => ⟨S3200000, .i1⟩
  | 86 => ⟨S_, .i32⟩
  | 87 => ⟨S3200000, .i32⟩
  | 88 => ⟨S3200000, .i32⟩
  | 89 => ⟨S3200000, .i32⟩
  | 90 => ⟨S3200000x1, .i32⟩
  | 91 => ⟨S3200000x64, .f32⟩
  | 92 => ⟨S3200000x64, .f32⟩
  | 93 => ⟨S3200000x64, .f32⟩
  | 94 => ⟨S_, .f32⟩
  | 95 => ⟨S200000x64, .f32⟩
  | 96 => ⟨S3200000x1, .i32⟩
  | 97 => ⟨S200000x64, .f32⟩
  | 98 => ⟨S1x64, .f32⟩
  | 99 => ⟨S64, .f32⟩
  | 100 => ⟨S1x64, .f32⟩
  | 101 => ⟨S200000x64, .f32⟩
  | 102 => ⟨S200000x64, .f32⟩
  | 103 => ⟨S200000x64, .f32⟩
  | 104 => ⟨S1x64x64, .f32⟩
  | 105 => ⟨S64x64, .f32⟩
  | 106 => ⟨S200000x64, .f32⟩
  | 107 => ⟨S3200000x1, .f32⟩
  | 108 => ⟨S_, .i32⟩
  | 109 => ⟨S3200000, .i32⟩
  | 110 => ⟨S3200000, .i1⟩
  | 111 => ⟨S_, .i32⟩
  | 112 => ⟨S3200000, .i32⟩
  | 113 => ⟨S3200000, .i32⟩
  | 114 => ⟨S3200000, .i32⟩
  | 115 => ⟨S3200000x1, .i32⟩
  | 116 => ⟨S3200000x64, .f32⟩
  | 117 => ⟨S3200000x64, .f32⟩
  | 118 => ⟨S3200000x64, .f32⟩
  | 119 => ⟨S_, .f32⟩
  | 120 => ⟨S200000x64, .f32⟩
  | 121 => ⟨S3200000x1, .i32⟩
  | 122 => ⟨S200000x64, .f32⟩
  | 123 => ⟨S1x64, .f32⟩
  | 124 => ⟨S64, .f32⟩
  | 125 => ⟨S1x64, .f32⟩
  | 126 => ⟨S200000x64, .f32⟩
  | 127 => ⟨S200000x64, .f32⟩
  | _ => ⟨S2x3200000, .i32⟩

abbrev hbmTy0_1 (i : Nat) : BufTy := match i % 128 with
  | 0 => ⟨S200000x64, .f32⟩
  | 1 => ⟨S_, .f32⟩
  | 2 => ⟨S200000x64, .f32⟩
  | 3 => ⟨S200000x64, .f32⟩
  | 4 => ⟨S100000x64, .f32⟩
  | 5 => ⟨S100000x64, .f32⟩
  | _ => ⟨S2x3200000, .i32⟩

abbrev hbmTy (i : Nat) : BufTy := match i / 128 with
  | 0 => hbmTy0_0 i
  | 1 => hbmTy0_1 i
  | _ => ⟨S2x3200000, .i32⟩

abbrev bufTy : (tb : Table) → Fin (tcTables nBuf tb) → BufTy
  | .hbm, ⟨i, _⟩ => hbmTy i
  | _, _ => ⟨S2x3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_c : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_10 : Ref sig .tc := ⟨.hbm, 83, rfl⟩
abbrev main_v61 : Ref sig .tc := ⟨.hbm, 84, rfl⟩
abbrev main_v62 : Ref sig .tc := ⟨.hbm, 85, rfl⟩
abbrev main_c_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_12 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_c_13 : Ref sig .tc := ⟨.hbm, 108, rfl⟩
abbrev main_v83 : Ref sig .tc := ⟨.hbm, 109, rfl⟩
abbrev main_v84 : Ref sig .tc := ⟨.hbm, 110, rfl⟩
abbrev main_c_14 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_15 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_16 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩

abbrev nD : Nat := 1
abbrev τ : Topo := Topo.v7x

variable {F : FTy → Type} [FloatOps F]

class Facts₀ : Prop where
  transposes_S64x768_S768x64_1_0 : S64x768.Transposes [1, 0] S768x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S200000x64_d0 : Shape.Concatenates [S100000x64, S100000x64] S200000x64 0
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S200000 : S_.BroadcastsInDim S200000 (![] : Fin 0 → Fin S200000.rank)
  bcast_S3200000_S3200000x1_0 : S3200000.BroadcastsInDim S3200000x1 (![0] : Fin 1 → Fin S3200000x1.rank)
  slices_S3x64x64_S1x64x64_0_0_0 : S3x64x64.Slices ![0, 0, 0] S1x64x64
  shapeCasts_S1x64x64_S64x64 : S1x64x64.ShapeCasts S64x64
  bcast_S3200000x1_S3200000x64_0_1 : S3200000x1.BroadcastsInDim S3200000x64 (![0, 1] : Fin 2 → Fin S3200000x64.rank)
  bcast_S_S200000x64 : S_.BroadcastsInDim S200000x64 (![] : Fin 0 → Fin S200000x64.rank)
  slices_S3x64_S1x64_0_0 : S3x64.Slices ![0, 0] S1x64
  shapeCasts_S1x64_S64 : S1x64.ShapeCasts S64
  bcast_S1x64_S200000x64_0_1 : S1x64.BroadcastsInDim S200000x64 (![0, 1] : Fin 2 → Fin S200000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  slices_S200000x64_S100000x64_0_0 : S200000x64.Slices ![0, 0] S100000x64
  slices_S200000x64_S100000x64_100000_0 : S200000x64.Slices ![100000, 0] S100000x64
  dot_S100000x768_S768x64_S100000x64_1_0_0_1_n_n_wf : DotDims.WF S100000x768 S768x64 S100000x64 [1] [0] [0] [1] [] []
  scatter_S200000_S3200000x1_S3200000_n_0_0_1_wf : ScatterDims.WF S200000 S3200000x1 S3200000 [] [0] [0] 1
  gather_S200000_S3200000x1_S3200000_n_0_n_n_0_1_1_wf : GatherDims.WF S200000 S3200000x1 S3200000 [] [0] [] [0] [] 1 ![1]
  dot_S200000x64_S64x64_S200000x64_1_0_0_1_n_n_wf : DotDims.WF S200000x64 S64x64 S200000x64 [1] [0] [0] [1] [] []
  gather_S200000x64_S3200000x1_S3200000x64_1_0_n_n_0_1_164_wf : GatherDims.WF S200000x64 S3200000x1 S3200000x64 [1] [0] [] [0] [] 1 ![1, 64]
  scatter_S200000x64_S3200000x1_S3200000x64_1_0_0_1_wf : ScatterDims.WF S200000x64 S3200000x1 S3200000x64 [1] [0] [0] 1

variable [Facts₀]

def dot_S100000x768_S768x64_S100000x64_1_0_0_1_n_n : DotDims S100000x768 S768x64 S100000x64 where
  lhsContracting := [1]
  rhsContracting := [0]
  lhsNonContracting := [0]
  rhsNonContracting := [1]
  lhsBatch := []
  rhsBatch := []
  wf := dot_S100000x768_S768x64_S100000x64_1_0_0_1_n_n_wf
def scatter_S200000_S3200000x1_S3200000_n_0_0_1 : ScatterDims S200000 S3200000x1 S3200000 where
  updateWindowDims := []
  insertedWindowDims := [0]
  scatterDimsToOperandDims := [0]
  indexVectorDim := 1
  wf := scatter_S200000_S3200000x1_S3200000_n_0_0_1_wf
def gather_S200000_S3200000x1_S3200000_n_0_n_n_0_1_1 : GatherDims S200000 S3200000x1 S3200000 where
  offsetDims := []
  collapsedSliceDims := [0]
  operandBatchingDims := []
  startIndicesBatchingDims := []
  startIndexMap := [0]
  indexVectorDim := 1
  sliceSizes := ![1]
  wf := gather_S200000_S3200000x1_S3200000_n_0_n_n_0_1_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def gather_S200000x64_S3200000x1_S3200000x64_1_0_n_n_0_1_164 : GatherDims S200000x64 S3200000x1 S3200000x64 where
  offsetDims := [1]
  collapsedSliceDims := [0]
  operandBatchingDims := []
  startIndicesBatchingDims := []
  startIndexMap := [0]
  indexVectorDim := 1
  sliceSizes := ![1, 64]
  wf := gather_S200000x64_S3200000x1_S3200000x64_1_0_n_n_0_1_164_wf
def scatter_S200000x64_S3200000x1_S3200000x64_1_0_0_1 : ScatterDims S200000x64 S3200000x1 S3200000x64 where
  updateWindowDims := [1]
  insertedWindowDims := [0]
  scatterDimsToOperandDims := [0]
  indexVectorDim := 1
  wf := scatter_S200000x64_S3200000x1_S3200000x64_1_0_0_1_wf

class Facts : Prop extends Facts₀ where

variable [Facts]
-- ==== Proof.KernelRun.lean ====
/-
  The run of the idealized program with its result buffers named: the launch through nineteen segments (eight host
  stretches, seven pipelined regions among them), ending with every unscoped buffer at the contents the fold of the
  segments gives it.
-/
import proofs.«130384_j68788196212816_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, without a fault, with each unscoped buffer at the contents the
    fold through the host stretches and the seven pipelined regions gives it: in particular the two results, and the
    eight arguments as launched. -/
theorem run : θ_run defs (onTc (τ := τ) (main (F := F))) ⟨m, fun _ => 0, ρ⟩ (fun r => ∀ c : Dev nD,
      r.2.mem ((c.tc : Thread nD τ).loc main_v97) = W19 m ρ c (Proc.devRef .tc main_v97)
      ∧ r.2.mem ((c.tc : Thread nD τ).loc main_v98) = W19 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v97 (by decide)),
       h c _ (mem_uc main_v98 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c)⟩)

end Cert.KernelIdeal.ValueRun

end
-- ==== Proof.LibRowOps.lean ====
/-
  Reads at an index, for rank-2 arrays, of the operations a row-wise kernel and its reference are built from — stated
  for any extents, at the ideal values (floats are extended reals) where a float operation is involved:

  * a matrix product contracting the left operand's columns with the right operand's rows (a `tpu.matmul` into the
    zero accumulator, the host's `dot_general`), read at `(i, j)`, is the sum over `k` of `l (i, k) * r (k, j)`;
  * three equally wide arrays joined along the columns, read at `(a, c)`, are piece `c / 64` at `(a, c % 64)`;
  * a column `[a, 1]` broadcast along the rows' direction to `[a, b]` reads, at `(p, c)`, the column at `p`;
  * a scalar broadcast to any shape reads the scalar everywhere.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

/-! ## The plain matrix product -/

/-- The dimension numbers of `[A, K] × [K, B] → [A, B]`: the left operand's axis 1 contracted with the right operand's
    axis 0, no batch axis. -/
abbrev plainDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row, whatever the contraction position. -/
theorem plain_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column, whatever the contraction position. -/
theorem plain_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a plain matrix product, re-indexed by the contracted coordinate: at `j = (i, c)` the left
    operand is read along row `i`, the right one down column `c`. -/
theorem plainDot_sum {A K B : Nat} (d : DotDims (⟨2, ![A, K]⟩ : Shape) ⟨2, ![K, B]⟩ ⟨2, ![A, B]⟩)
    (hd : ∃ wf, d = plainDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (plainDims wf) K rfl rfl).symm]
  refine Finset.sum_congr rfl fun k _ => ?_
  have hk := contrEquiv1_symm_val (plainDims wf) K rfl rfl k
  have el : (plainDims wf).lhsIdx j ((contrEquiv1 (plainDims wf) K rfl rfl).symm k) = ix2 (j 0) k :=
    funext fun a => Fin.ext (by
      match a with
      | ⟨0, _⟩ => exact plain_lhs0 wf j _
      | ⟨1, _⟩ => exact ((plainDims wf).lhsIdx_val_of_single (cl := 1) rfl j _).trans hk)
  have er : (plainDims wf).rhsIdx j ((contrEquiv1 (plainDims wf) K rfl rfl).symm k) = ix2 k (j 1) :=
    funext fun a => Fin.ext (by
      match a with
      | ⟨0, _⟩ => exact ((plainDims wf).rhsIdx_val_of_single (cr := 0) rfl j _).trans hk
      | ⟨1, _⟩ => exact plain_rhs1 wf j _)
  rw [el, er]
  rfl

/-- A `tpu.matmul` of a plain product into the zero accumulator, read at `(i, c)`: the sum over `k` of
    `l (i, k) * r (k, c)`. -/
theorem matmul_zero_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact plainDot_sum d hd l r (ix2 i c)

/-- The host's `dot_general` of a plain product, read at `(i, c)`: the same sum. -/
theorem dotGeneral_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision) (sched : HostSchedule)
    (l : FVec Ideal (⟨2, ![A, K]⟩ : Shape) φ₁) (r : FVec Ideal (⟨2, ![K, B]⟩ : Shape) φ₂) (i : Fin A) (c : Fin B) :
    FloatOps.dotGeneral d prec sched l r (ix2 i c) = ∑ k : Fin K, l (ix2 i k) * r (ix2 k c) := by
  rw [Ideal.dotGeneral_apply]
  exact plainDot_sum d hd l r (ix2 i c)

/-! ## Three pieces joined along the columns -/

variable {α : Type}

/-- Three `[A, 64]` arrays joined along axis 1 into `[A, 192]`, read at `(a, c)`: piece `c / 64` at `(a, c % 64)`. -/
theorem concat3_apply {A : Nat} (u0 u1 u2 : (⟨2, ![A, 64]⟩ : Shape).Idx → α)
    (h : Shape.Concatenates [(⟨2, ![A, 64]⟩ : Shape), ⟨2, ![A, 64]⟩, ⟨2, ![A, 64]⟩] ⟨2, ![A, 192]⟩ 1)
    (a : Fin A) (c : Fin 192) :
    concatenate (⟨2, ![A, 192]⟩ : Shape) 1 [⟨⟨2, ![A, 64]⟩, u0⟩, ⟨⟨2, ![A, 64]⟩, u1⟩, ⟨⟨2, ![A, 64]⟩, u2⟩] h (ix2 a c)
      = (![u0, u1, u2] ⟨c.val / 64, by have := c.isLt; omega⟩) (ix2 a ⟨c.val % 64, Nat.mod_lt _ (by decide)⟩) := by
  refine concatenate_ofFn_apply (t := (⟨2, ![A, 192]⟩ : Shape)) (s₁ := (⟨2, ![A, 64]⟩ : Shape)) 1 ![u0, u1, u2] h rfl 64 rfl
    (ix2 a c) ⟨c.val / 64, by have := c.isLt; omega⟩ rfl (ix2 a ⟨c.val % 64, Nat.mod_lt _ (by decide)⟩) rfl ?_
  intro b hb
  match b with
  | ⟨0, _⟩ => rfl
  | ⟨1, _⟩ => exact absurd rfl hb

/-! ## A column broadcast along its rows -/

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A scalar broadcast -/

/-- A scalar broadcast to any shape reads, everywhere, the scalar. -/
theorem broadcastInDim_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 fun a => a.elim0

end Idealize.ShloMosaic.RowOps

end
-- ==== Proof.Payloads.lean ====
/-
  The arithmetic of the three kinds of kernel body, read at one entry of the stored block, on the extended reals.

  * the feature fusion: entry (r, j) of the stored block is (e r j + Σ_k f r k · w k j) + b 0 j — the change of float
    format before the product is the identity, and the product into a zero accumulator is the plain sum;
  * the layer projection: entry (r, j) is Σ_k x r k · w k j;
  * the layer's close: the new features are s r j + b 0 j, and the running sum is a r j + (s r j + b 0 j).
-/
import proofs.«130384_j68788196212816_2_alg».proof.Proof.Gen.KernelIdeal.Skeleton
import proofs.«130384_j68788196212816_2_alg».proof.Proof.LibRowOps
import Idealize.ShloMosaic.Lib.ValueIdx
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-- A row vector [1, B] broadcast down the rows of [A, B], read at (r, j): the vector's entry j. -/
theorem rowBroadcast_apply {α : Type} {A B : Nat} (v : (⟨2, ![1, B]⟩ : Shape).Idx → α)
    (h : (⟨2, ![1, B]⟩ : Shape).Broadcasts ⟨2, ![A, B]⟩) (r : Fin A) (j : Fin B) :
    broadcastTo (⟨2, ![A, B]⟩ : Shape) v h (ix2 r j) = v (ix2 0 j) := by
  refine broadcastTo_apply v h (ix2 r j) (ix2 0 j) fun a => ?_
  match a with
  | ⟨0, _⟩ => rfl
  | ⟨1, _⟩ =>
    by_cases hB : B = 1
    · subst hB; show (j : ℕ) = if (1 : ℕ) = 1 then 0 else _; rw [if_pos rfl]; exact Nat.lt_one_iff.mp j.isLt
    · show (j : ℕ) = if B = 1 then 0 else (j : ℕ); rw [if_neg hB]

/-- The layer projection's stored block at (r, j): row r of the features against column j of the weights (region 1). -/
theorem proj1_apply (x : Vec Ideal S10000x64 .f32) (w : Vec Ideal S64x64 .f32) (r : Fin 10000) (j : Fin 64) :
    k1_pay1 (F := Ideal) x w (ix2 r j) = ∑ k : Fin 64, x (ix2 r k) * w (ix2 k j) := by
  unfold k1_pay1
  simp only [shapeCast_self]
  exact RowOps.matmul_zero_plain_apply dot_S10000x64_S64x64_S10000x64_1_0_0_1_n_n ⟨_, rfl⟩ none _ _ r j

/-- The layer projection's stored block at (r, j): row r of the features against column j of the weights (region 3). -/
theorem proj3_apply (x : Vec Ideal S10000x64 .f32) (w : Vec Ideal S64x64 .f32) (r : Fin 10000) (j : Fin 64) :
    k3_pay1 (F := Ideal) x w (ix2 r j) = ∑ k : Fin 64, x (ix2 r k) * w (ix2 k j) := by
  unfold k3_pay1
  simp only [shapeCast_self]
  exact RowOps.matmul_zero_plain_apply dot_S10000x64_S64x64_S10000x64_1_0_0_1_n_n ⟨_, rfl⟩ none _ _ r j

/-- The layer projection's stored block at (r, j): row r of the features against column j of the weights (region 5). -/
theorem proj5_apply (x : Vec Ideal S10000x64 .f32) (w : Vec Ideal S64x64 .f32) (r : Fin 10000) (j : Fin 64) :
    k5_pay1 (F := Ideal) x w (ix2 r j) = ∑ k : Fin 64, x (ix2 r k) * w (ix2 k j) := by
  unfold k5_pay1
  simp only [shapeCast_self]
  exact RowOps.matmul_zero_plain_apply dot_S10000x64_S64x64_S10000x64_1_0_0_1_n_n ⟨_, rfl⟩ none _ _ r j

/-- The feature fusion's stored block at (r, j). -/
theorem fusion_apply (f : Vec Ideal S2000x768 .f32) (w : Vec Ideal S768x64 .f32) (e : Vec Ideal S2000x64 .f32)
    (b : Vec Ideal S1x64 .f32) (r : Fin 2000) (j : Fin 64) :
    k0_pay1 (F := Ideal) f w e b (ix2 r j) = (e (ix2 r j) + ∑ k : Fin 768, f (ix2 r k) * w (ix2 k j)) + b (ix2 0 j) := by
  unfold k0_pay1
  simp only [shapeCast_self]
  exact congrArg₂ (· + ·)
    (congrArg (e (ix2 r j) + ·) (RowOps.matmul_zero_plain_apply dot_S2000x768_S768x64_S2000x64_1_0_0_1_n_n ⟨_, rfl⟩ none _ _ r j))
    (rowBroadcast_apply _ _ r j)

/-- The layer's new features at (r, j): the aggregated messages plus the bias (region 2). -/
theorem close2_x_apply (s : Vec Ideal S10000x64 .f32) (b : Vec Ideal S1x64 .f32) (r : Fin 10000) (j : Fin 64) :
    k2_pay1 (F := Ideal) s b (ix2 r j) = s (ix2 r j) + b (ix2 0 j) := by
  unfold k2_pay1
  simp only [shapeCast_self]
  show s (ix2 r j) + _ = _
  rw [rowBroadcast_apply]

/-- The running sum after the layer at (r, j): what it was plus the layer's new features (region 2). -/
theorem close2_acc_apply (s : Vec Ideal S10000x64 .f32) (b : Vec Ideal S1x64 .f32) (a : Vec Ideal S10000x64 .f32)
    (r : Fin 10000) (j : Fin 64) :
    k2_pay2 (F := Ideal) s b a (ix2 r j) = a (ix2 r j) + (s (ix2 r j) + b (ix2 0 j)) := by
  unfold k2_pay2
  simp only [shapeCast_self]
  show a (ix2 r j) + _ = _
  rw [close2_x_apply]

/-- The layer's new features at (r, j): the aggregated messages plus the bias (region 4). -/
theorem close4_x_apply (s : Vec Ideal S10000x64 .f32) (b : Vec Ideal S1x64 .f32) (r : Fin 10000) (j : Fin 64) :
    k4_pay1 (F := Ideal) s b (ix2 r j) = s (ix2 r j) + b (ix2 0 j) := by
  unfold k4_pay1
  simp only [shapeCast_self]
  show s (ix2 r j) + _ = _
  rw [rowBroadcast_apply]

/-- The running sum after the layer at (r, j): what it was plus the layer's new features (region 4). -/
theorem close4_acc_apply (s : Vec Ideal S10000x64 .f32) (b : Vec Ideal S1x64 .f32) (a : Vec Ideal S10000x64 .f32)
    (r : Fin 10000) (j : Fin 64) :
    k4_pay2 (F := Ideal) s b a (ix2 r j) = a (ix2 r j) + (s (ix2 r j) + b (ix2 0 j)) := by
  unfold k4_pay2
  simp only [shapeCast_self]
  show a (ix2 r j) + _ = _
  rw [close4_x_apply]

/-- The layer's new features at (r, j): the aggregated messages plus the bias (region 6). -/
theorem close6_x_apply (s : Vec Ideal S10000x64 .f32) (b : Vec Ideal S1x64 .f32) (r : Fin 10000) (j : Fin 64) :
    k6_pay1 (F := Ideal) s b (ix2 r j) = s (ix2 r j) + b (ix2 0 j) := by
  unfold k6_pay1
  simp only [shapeCast_self]
  show s (ix2 r j) + _ = _
  rw [rowBroadcast_apply]

/-- The running sum after the layer at (r, j): what it was plus the layer's new features (region 6). -/
theorem close6_acc_apply (s : Vec Ideal S10000x64 .f32) (b : Vec Ideal S1x64 .f32) (a : Vec Ideal S10000x64 .f32)
    (r : Fin 10000) (j : Fin 64) :
    k6_pay2 (F := Ideal) s b a (ix2 r j) = a (ix2 r j) + (s (ix2 r j) + b (ix2 0 j)) := by
  unfold k6_pay2
  simp only [shapeCast_self]
  show a (ix2 r j) + _ = _
  rw [close6_x_apply]

end Cert.KernelIdeal.Pay

end
-- ==== Proof.Spec.lean ====
/-
  The pure functions the two programs share, on arrays of extended reals indexed by (row, column), and two layout facts.

  * `matProd X W`: the matrix product, entry (r, j) the sum over k of X r k · W k j.
  * `fused Fe Wt B E`: the fused item embeddings (E + Fe · Wt) + B, the bias row B down every row.
  * `newX S B`, `newAcc S B A`: a layer's close — the new features S + B and the running sum A + (S + B).
  * a row [1, B] broadcast down [A, B] reads the row's entry at the column; a vector of B entries recast as one row is
    the vector broadcast into that row.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Spec

open Idealize.ShloMosaic Idealize.ShloMosaic.ValueIdx

/-- Arrays of extended reals indexed by (row, column). -/
abbrev Mat (a b : Nat) : Type := (⟨2, ![a, b]⟩ : Shape).Idx → EReal

/-- The product of the features with the weights, entry by entry. -/
def matProd (X : Mat 200000 64) (W : Mat 64 64) : Mat 200000 64 :=
  fun i => ∑ k : Fin 64, X (ix2 (i 0) k) * W (ix2 k (i 1))

/-- The fused item embeddings, entry by entry. -/
def fused (Fe : Mat 100000 768) (Wt : Mat 768 64) (B : Mat 1 64) (E : Mat 100000 64) : Mat 100000 64 :=
  fun i => (E i + ∑ k : Fin 768, Fe (ix2 (i 0) k) * Wt (ix2 k (i 1))) + B (ix2 0 (i 1))

/-- A layer's new features: the aggregated messages plus the bias row, down every row. -/
def newX (S : Mat 200000 64) (B : Mat 1 64) : Mat 200000 64 :=
  fun i => S i + B (ix2 0 (i 1))

/-- The running sum after a layer. -/
def newAcc (S : Mat 200000 64) (B : Mat 1 64) (A : Mat 200000 64) : Mat 200000 64 :=
  fun i => A i + (S i + B (ix2 0 (i 1)))

theorem newAcc_eq (S : Mat 200000 64) (B : Mat 1 64) (A : Mat 200000 64) :
    newAcc S B A = fun i => A i + newX S B i := rfl

/-- A row [1, B] broadcast (as a host operation on both axes) down the rows of [A, B] reads the row's entry at the column. -/
theorem rows_apply {α : Type} {A B : Nat} (h : (⟨2, ![1, B]⟩ : Shape).BroadcastsInDim ⟨2, ![A, B]⟩ ![0, 1])
    (v : (⟨2, ![1, B]⟩ : Shape).Idx → α) (i : (⟨2, ![A, B]⟩ : Shape).Idx) :
    broadcastInDim (⟨2, ![A, B]⟩ : Shape) ![0, 1] h v i = v (ix2 0 (i 1)) := by
  refine broadcastInDim_apply ![0, 1] h v i (ix2 0 (i 1)) fun a => ?_
  match a with
  | ⟨0, _⟩ => rfl
  | ⟨1, _⟩ =>
    by_cases hB : B = 1
    · subst hB; show ((i 1 : Fin 1) : ℕ) = if (1 : ℕ) = 1 then 0 else _; rw [if_pos rfl]; exact Nat.lt_one_iff.mp (i 1).isLt
    · show ((i 1 : Fin B) : ℕ) = if B = 1 then 0 else ((i 1 : Fin B) : ℕ); rw [if_neg hB]

/-- A vector of B entries recast as the one row [1, B] is the vector broadcast into that row. -/
theorem row_of_vec {α : Type} {B : Nat} (w : (⟨1, ![B]⟩ : Shape).Idx → α)
    (h : (⟨1, ![B]⟩ : Shape).ShapeCasts ⟨2, ![1, B]⟩) (h' : (⟨1, ![B]⟩ : Shape).BroadcastsInDim ⟨2, ![1, B]⟩ ![1]) :
    shapeCast (⟨2, ![1, B]⟩ : Shape) w h = broadcastInDim (⟨2, ![1, B]⟩ : Shape) ![1] h' w := by
  funext i
  have hi0 : ((i 0 : Fin 1) : ℕ) = 0 := Nat.lt_one_iff.mp (i 0).isLt
  rw [shapeCast_apply w h i (ix1 (i 1)) (by
      rw [Shape.rowMajor_val_one, Shape.rowMajor_val_two]
      show ((i 1 : Fin B) : ℕ) = ((i 0 : Fin 1) : ℕ) * B + ((i 1 : Fin B) : ℕ)
      rw [hi0]; omega),
    broadcastInDim_apply ![1] h' w i (ix1 (i 1)) (fun a => by
      match a with
      | ⟨0, _⟩ =>
        by_cases hB : B = 1
        · subst hB; show ((i 1 : Fin 1) : ℕ) = if (1 : ℕ) = 1 then 0 else _; rw [if_pos rfl]; exact Nat.lt_one_iff.mp (i 1).isLt
        · show ((i 1 : Fin B) : ℕ) = if B = 1 then 0 else ((i 1 : Fin B) : ℕ); rw [if_neg hB])]

/-- Where the condition holds the guarded operand is the operand: a power of "the degree where it is positive, one
    elsewhere", selected where the degree is positive, is the power of the degree selected there. -/
theorem select_pow_select {F : FTy → Type} [FloatOps F] {s : Shape} {φ : FTy} (cnd : IVec s 1) (d one e z : FVec F s φ) :
    select cnd (Host.powf (select cnd d one) e) z = select cnd (Host.powf d e) z := by
  funext i
  show Scalar.select (cnd i) (FloatOps.hostPowf (Scalar.select (cnd i) (d i) (one i)) (e i)) (z i)
    = Scalar.select (cnd i) (FloatOps.hostPowf (d i) (e i)) (z i)
  by_cases h : cnd i = 1
  · simp only [Scalar.select, if_pos h]
  · simp only [Scalar.select, if_neg h]

end Cert.Spec

end
-- ==== Proof.Region0.lean ====
/-
  The feature fusion as a pipelined region over fifty row tiles of 2000 rows: whatever the item features Fe, the
  transposed weights Wt, the bias row B and the item embeddings E hold when the region is entered, the result array ends
  holding (E + Fe · Wt) + B, entry by entry; the fifty tiles cover its rows.
-/
import proofs.«130384_j68788196212816_2_alg».proof.Proof.Gen.KernelIdeal.Frame
import proofs.«130384_j68788196212816_2_alg».proof.Proof.Payloads
import proofs.«130384_j68788196212816_2_alg».proof.Proof.Spec

set_option maxRecDepth 16384

noncomputable section

open scoped BigOperators

namespace Cert.KernelIdeal.Reg0

open Cert.KernelIdeal Cert.KernelIdeal.Gen Idealize.ShloMosaic Idealize.ShloMosaic.TcCoe Idealize.ShloMosaic.ValueIdx
open Idealize.ShloMosaic.Pipeline (Dat Cfg Window)
open Cert.Spec

variable (V : (c : Dev nD) → (b : Ref sig .tc) → Buf (Elt Ideal) ((c : Thread nD τ).loc b))

theorem zeros : (![0, 0] : Fin 2 → Nat) = fun _ => 0 := funext fun a => by fin_cases a <;> rfl

/-- The index maps over the grid: features, embeddings and result move down the rows with the tile; weights and bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What tile t writes back is tile t's block of the fused embeddings. -/
theorem flushed_eq (c : Dev nD) (t : Fin cfg0.N) :
    (dat0 V c).flushed 4 t = ((cfg0.win 4).blk t).view.read (Elt Ideal) (fused (V c main_arg1) (V c main_v0) (V c main_v1) (V c main_arg3)) := by
  show (cfg0.win 4).cut (grid0.coords t) ((dat0 V c).after 4 t) = _
  rw [after0_4]
  unfold out0_4
  rw [View.canon_unit_zero zeros]
  simp only [View.ld_unit_zero (S := S2000x768) zeros, View.ld_unit_zero (S := S768x64) zeros,
    View.ld_unit_zero (S := S2000x64) zeros, View.ld_unit_zero (S := S1x64) zeros]
  obtain ⟨e0, e1, e2, e3, e4, e5, e6, e7, e8, e9⟩ := idx_facts t
  funext y
  obtain ⟨r, j, rfl⟩ : ∃ (r : Fin 2000) (j : Fin 64), y = ix2 r j := ⟨y 0, y 1, eq_ix2 y⟩
  refine (Pay.fusion_apply _ _ _ _ r j).trans ?_
  have he : ((cfg0.win 3).blk t).view.emb (ix2 r j) = ((cfg0.win 4).blk t).view.emb (ix2 r j) := by
    funext a; apply Fin.ext
    match a with
    | ⟨0, _⟩ => show win0_3.index t (0 : Fin 2) * 2000 + 1 * r.val = win0_4.index t (0 : Fin 2) * 2000 + 1 * r.val; omega
    | ⟨1, _⟩ => show win0_3.index t (1 : Fin 2) * 64 + 1 * j.val = win0_4.index t (1 : Fin 2) * 64 + 1 * j.val; omega
  have hb : ((cfg0.win 2).blk t).view.emb (ix2 0 j) = ix2 0 ((((cfg0.win 4).blk t).view.emb (ix2 r j)) 1) := by
    funext a; apply Fin.ext
    match a with
    | ⟨0, _⟩ => show win0_2.index t (0 : Fin 2) * 1 + 1 * 0 = 0; omega
    | ⟨1, _⟩ => show win0_2.index t (1 : Fin 2) * 64 + 1 * j.val = win0_4.index t (1 : Fin 2) * 64 + 1 * j.val; omega
  have hf : ∀ k : Fin 768, ((cfg0.win 0).blk t).view.emb (ix2 r k) = ix2 ((((cfg0.win 4).blk t).view.emb (ix2 r j)) 0) k := by
    intro k; funext a; apply Fin.ext
    match a with
    | ⟨0, _⟩ => show win0_0.index t (0 : Fin 2) * 2000 + 1 * r.val = win0_4.index t (0 : Fin 2) * 2000 + 1 * r.val; omega
    | ⟨1, _⟩ => show win0_0.index t (1 : Fin 2) * 768 + 1 * k.val = k.val; omega
  have hw : ∀ k : Fin 768, ((cfg0.win 1).blk t).view.emb (ix2 k j) = ix2 k ((((cfg0.win 4).blk t).view.emb (ix2 r j)) 1) := by
    intro k; funext a; apply Fin.ext
    match a with
    | ⟨0, _⟩ => show win0_1.index t (0 : Fin 2) * 768 + 1 * k.val = k.val; omega
    | ⟨1, _⟩ => show win0_1.index t (1 : Fin 2) * 64 + 1 * j.val = win0_4.index t (1 : Fin 2) * 64 + 1 * j.val; omega
  show (fun (Fe : Mat 100000 768) (Wt : Mat 768 64) (B : Mat 1 64) (E : Mat 100000 64) =>
      (E (((cfg0.win 3).blk t).view.emb (ix2 r j))
        + ∑ k : Fin 768, Fe (((cfg0.win 0).blk t).view.emb (ix2 r k)) * Wt (((cfg0.win 1).blk t).view.emb (ix2 k j)))
      + B (((cfg0.win 2).blk t).view.emb (ix2 0 j))) (V c main_arg1) (V c main_v0) (V c main_v1) (V c main_arg3)
    = fused (V c main_arg1) (V c main_v0) (V c main_v1) (V c main_arg3) (((cfg0.win 4).blk t).view.emb (ix2 r j))
  unfold fused
  rw [he, hb]
  simp only [hf, hw]
  try rfl

/-- An index of the result array is in tile t's block iff each coordinate is in the block's range on its axis. -/
theorem mem_blk (t : Fin cfg0.N) (i : S100000x64.Idx) :
    i ∈ ((cfg0.win 4).blk t).view.set ↔ ∀ a : Fin 2, win0_4.index t a * S2000x64.size a ≤ (i a).val ∧ (i a).val < win0_4.index t a * S2000x64.size a + S2000x64.size a := by
  show i ∈ ((View.whole main_v2).slice (win0_4.rect t)).set ↔ _
  rw [View.set_slice_whole, Rect.mem_set_unit]
  exact Iff.rfl

/-- Row i is in the block of tile ⌊i / 2000⌋. -/
theorem cover (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  have hN : (i 0).val / 2000 < cfg0.N := by show _ < grid0.N; rw [N_0]; omega
  obtain ⟨e0, e1, e2, e3, e4, e5, e6, e7, e8, e9⟩ := idx_facts ⟨(i 0).val / 2000, hN⟩
  refine ⟨⟨(i 0).val / 2000, hN⟩, flush0_4 _, ?_⟩
  rw [mem_blk]
  intro a
  match a with
  | ⟨0, _⟩ =>
    show win0_4.index ⟨(i 0).val / 2000, hN⟩ (0 : Fin 2) * 2000 ≤ (i 0).val ∧ (i 0).val < win0_4.index ⟨(i 0).val / 2000, hN⟩ (0 : Fin 2) * 2000 + 2000
    rw [e8]; show (i 0).val / 2000 * 2000 ≤ (i 0).val ∧ (i 0).val < (i 0).val / 2000 * 2000 + 2000; omega
  | ⟨1, _⟩ =>
    show win0_4.index ⟨(i 0).val / 2000, hN⟩ (1 : Fin 2) * 64 ≤ (i 1).val ∧ (i 1).val < win0_4.index ⟨(i 0).val / 2000, hN⟩ (1 : Fin 2) * 64 + 64
    rw [e9]; omega

/-- The result array after the region: the fused embeddings of the arrays the region found. -/
theorem final (c : Dev nD) : (dat0 V c).arrAt 4 cfg0.N = fused (V c main_arg1) (V c main_v0) (V c main_v1) (V c main_arg3) :=
  (dat0 V c).arrAt_eq_of_cover 4 _ (fun t _ => flushed_eq V c t) cover

end Cert.KernelIdeal.Reg0

end
-- ==== Proof.RefStages.lean ====
/-
  The reference's stages that the kernel's regions compute, as the shared pure functions: the host's plain matrix
  product is the entry-by-entry sum, a bias row broadcast and added is the row added down every row.
-/
import proofs.«130384_j68788196212816_2_alg».proof.Proof.ReadP
import proofs.«130384_j68788196212816_2_alg».proof.Proof.LibRowOps
import proofs.«130384_j68788196212816_2_alg».proof.Proof.Spec

noncomputable section

open scoped BigOperators

namespace Cert.ReferenceIdeal.Stages

open Cert.ReferenceIdeal Cert.ReferenceIdeal.Gen Cert.ReferenceIdeal.Read Idealize.ShloMosaic Idealize.ShloMosaic.ValueIdx Cert.Spec

/-- The host's plain matrix product [A, K] × [K, B] read at an index: the sum over k. -/
theorem hostDot_apply {A K B : Nat} (d : DotDims (⟨2, ![A, K]⟩ : Shape) ⟨2, ![K, B]⟩ ⟨2, ![A, B]⟩)
    (hd : ∃ wf, d = RowOps.plainDims wf) (X : FVec Ideal (⟨2, ![A, K]⟩ : Shape) .f32) (W : FVec Ideal (⟨2, ![K, B]⟩ : Shape) .f32)
    (i : (⟨2, ![A, B]⟩ : Shape).Idx) :
    Host.dotGeneral d none X W i = ∑ k : Fin K, X (ix2 (i 0) k) * W (ix2 k (i 1)) := by
  obtain ⟨r, j, rfl⟩ : ∃ (r : Fin A) (j : Fin B), i = ix2 r j := ⟨i 0, i 1, eq_ix2 i⟩
  simp only [Host.dotGeneral]
  exact RowOps.dotGeneral_plain_apply d hd _ _ _ _ r j

/-- The reference's layer projection is the matrix product. -/
theorem dot_eq (X : FVec Ideal S200000x64 .f32) (W : FVec Ideal S64x64 .f32) :
    Host.dotGeneral dot_S200000x64_S64x64_S200000x64_1_0_0_1_n_n none X W = matProd X W :=
  funext fun i => hostDot_apply _ ⟨_, rfl⟩ X W i

/-- The reference's fused item embeddings. -/
theorem v5_eq (x1 : FVec Ideal S100000x768 .f32) (x3 : FVec Ideal S100000x64 .f32) (x4 : FVec Ideal S64x768 .f32) (x5 : FVec Ideal S64 .f32) :
    val_main_v5 (F := Ideal) x1 x3 x4 x5 = fused x1 (val_main_v0 (F := Ideal) x4) (val_main_v3 (F := Ideal) x5) x3 := by
  unfold val_main_v5 val_main_v2 val_main_v1 val_main_v4
  funext i
  show (x3 i + Host.dotGeneral dot_S100000x768_S768x64_S100000x64_1_0_0_1_n_n none x1 (val_main_v0 (F := Ideal) x4) i)
    + broadcastInDim S100000x64 ![0, 1] bcast_S1x64_S100000x64_0_1 (val_main_v3 (F := Ideal) x5) i = _
  rw [hostDot_apply dot_S100000x768_S768x64_S100000x64_1_0_0_1_n_n ⟨_, rfl⟩, rows_apply]
  rfl

/-- A bias row broadcast down the rows and added is the row added down every row. -/
theorem addRows_eq (S : FVec Ideal S200000x64 .f32) (Bv : FVec Ideal S1x64 .f32) :
    addf S (broadcastInDim S200000x64 ![0, 1] bcast_S1x64_S200000x64_0_1 Bv) = newX S Bv := by
  funext i
  show S i + broadcastInDim S200000x64 ![0, 1] bcast_S1x64_S200000x64_0_1 Bv i = _
  rw [rows_apply]
  rfl

/-- The running sum plus the new features, as the shared function. -/
theorem acc_eq (S : FVec Ideal S200000x64 .f32) (Bv : FVec Ideal S1x64 .f32) (A : FVec Ideal S200000x64 .f32) :
    addf A (newX S Bv) = newAcc S Bv A := rfl

/-- The reference's layer projection (stage 37) is the matrix product of its two operands. -/
theorem v37_eq (x1 : (⟨S100000x768, .f32⟩ : BufTy).Contents (Elt Ideal)) (x2 : (⟨S100000x64, .f32⟩ : BufTy).Contents (Elt Ideal)) (x3 : (⟨S100000x64, .f32⟩ : BufTy).Contents (Elt Ideal)) (x4 : (⟨S64x768, .f32⟩ : BufTy).Contents (Elt Ideal)) (x5 : (⟨S64, .f32⟩ : BufTy).Contents (Elt Ideal)) (x6 : (⟨S3x64x64, .f32⟩ : BufTy).Contents (Elt Ideal)) :
    val_main_v37 (F := Ideal) x1 x2 x3 x4 x5 x6 = matProd (val_main_v6 (F := Ideal) x1 x2 x3 x4 x5) (val_main_v36 (F := Ideal) x6) := by
  unfold val_main_v37
  exact dot_eq _ _

/-- The reference's new features (stage 55): the aggregated messages plus the bias row down every row. -/
theorem v55_eq (x0 : (⟨S2x3200000, .i32⟩ : BufTy).Contents (Elt Ideal)) (x1 : (⟨S100000x768, .f32⟩ : BufTy).Contents (Elt Ideal)) (x2 : (⟨S100000x64, .f32⟩ : BufTy).Contents (Elt Ideal)) (x3 : (⟨S100000x64, .f32⟩ : BufTy).Contents (Elt Ideal)) (x4 : (⟨S64x768, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal)) :
    val_main_v55 (F := Ideal) x0 x1 x2 x3 x4 x5 x6 x7 = newX (val_main_v50 (F := Ideal) x0 x1 x2 x3 x4 x5 x6) (val_main_v53 (F := Ideal) x7) := by
  unfold val_main_v55 val_main_v54
  exact addRows_eq _ _

/-- The reference's running sum (stage 56): what it was plus the layer's new features. -/
theorem v56_eq (x0 : (⟨S2x3200000, .i32⟩ : BufTy).Contents (Elt Ideal)) (x1 : (⟨S100000x768, .f32⟩ : BufTy).Contents (Elt Ideal)) (x2 : (⟨S100000x64, .f32⟩ : BufTy).Contents (Elt Ideal)) (x3 : (⟨S100000x64, .f32⟩ : BufTy).Contents (Elt Ideal)) (x4 : (⟨S64x768, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal)) :
    val_main_v56 (F := Ideal) x0 x1 x2 x3 x4 x5 x6 x7 = newAcc (val_main_v50 (F := Ideal) x0 x1 x2 x3 x4 x5 x6) (val_main_v53 (F := Ideal) x7) (val_main_v6 (F := Ideal) x1 x2 x3 x4 x5) := by
  unfold val_main_v56
  rw [v55_eq]
  exact acc_eq _ _ _

/-- The reference's layer projection (stage 59) is the matrix product of its two operands. -/
theorem v59_eq (x0 : (⟨S2x3200000, .i32⟩ : BufTy).Contents (Elt Ideal)) (x1 : (⟨S100000x768, .f32⟩ : BufTy).Contents (Elt Ideal)) (x2 : (⟨S100000x64, .f32⟩ : BufTy).Contents (Elt Ideal)) (x3 : (⟨S100000x64, .f32⟩ : BufTy).Contents (Elt Ideal)) (x4 : (⟨S64x768, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal)) :
    val_main_v59 (F := Ideal) x0 x1 x2 x3 x4 x5 x6 x7 = matProd (val_main_v55 (F := Ideal) x0 x1 x2 x3 x4 x5 x6 x7) (val_main_v58 (F := Ideal) x6) := by
  unfold val_main_v59
  exact dot_eq _ _

/-- The reference's new features (stage 77): the aggregated messages plus the bias row down every row. -/
theorem v77_eq (x0 : (⟨S2x3200000, .i32⟩ : BufTy).Contents (Elt Ideal)) (x1 : (⟨S100000x768, .f32⟩ : BufTy).Contents (Elt Ideal)) (x2 : (⟨S100000x64, .f32⟩ : BufTy).Contents (Elt Ideal)) (x3 : (⟨S100000x64, .f32⟩ : BufTy).Contents (Elt Ideal)) (x4 : (⟨S64x768, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal)) :
    val_main_v77 (F := Ideal) x0 x1 x2 x3 x4 x5 x6 x7 = newX (val_main_v72 (F := Ideal) x0 x1 x2 x3 x4 x5 x6 x7) (val_main_v75 (F := Ideal) x7) := by
  unfold val_main_v77 val_main_v76
  exact addRows_eq _ _

/-- The reference's running sum (stage 78): what it was plus the layer's new features. -/
theorem v78_eq (x0 : (⟨S2x3200000, .i32⟩ : BufTy).Contents (Elt Ideal)) (x1 : (⟨S100000x768, .f32⟩ : BufTy).Contents (Elt Ideal)) (x2 : (⟨S100000x64, .f32⟩ : BufTy).Contents (Elt Ideal)) (x3 : (⟨S100000x64, .f32⟩ : BufTy).Contents (Elt Ideal)) (x4 : (⟨S64x768, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal)) :
    val_main_v78 (F := Ideal) x0 x1 x2 x3 x4 x5 x6 x7 = newAcc (val_main_v72 (F := Ideal) x0 x1 x2 x3 x4 x5 x6 x7) (val_main_v75 (F := Ideal) x7) (val_main_v56 (F := Ideal) x0 x1 x2 x3 x4 x5 x6 x7) := by
  unfold val_main_v78
  rw [v77_eq]
  exact acc_eq _ _ _

/-- The reference's layer projection (stage 81) is the matrix product of its two operands. -/
theorem v81_eq (x0 : (⟨S2x3200000, .i32⟩ : BufTy).Contents (Elt Ideal)) (x1 : (⟨S100000x768, .f32⟩ : BufTy).Contents (Elt Ideal)) (x2 : (⟨S100000x64, .f32⟩ : BufTy).Contents (Elt Ideal)) (x3 : (⟨S100000x64, .f32⟩ : BufTy).Contents (Elt Ideal)) (x4 : (⟨S64x768, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal)) :
    val_main_v81 (F := Ideal) x0 x1 x2 x3 x4 x5 x6 x7 = matProd (val_main_v77 (F := Ideal) x0 x1 x2 x3 x4 x5 x6 x7) (val_main_v80 (F := Ideal) x6) := by
  unfold val_main_v81
  exact dot_eq _ _

/-- The reference's new features (stage 99): the aggregated messages plus the bias row down every row. -/
theorem v99_eq (x0 : (⟨S2x3200000, .i32⟩ : BufTy).Contents (Elt Ideal)) (x1 : (⟨S100000x768, .f32⟩ : BufTy).Contents (Elt Ideal)) (x2 : (⟨S100000x64, .f32⟩ : BufTy).Contents (Elt Ideal)) (x3 : (⟨S100000x64, .f32⟩ : BufTy).Contents (Elt Ideal)) (x4 : (⟨S64x768, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal)) :
    val_main_v99 (F := Ideal) x0 x1 x2 x3 x4 x5 x6 x7 = newX (val_main_v94 (F := Ideal) x0 x1 x2 x3 x4 x5 x6 x7) (val_main_v97 (F := Ideal) x7) := by
  unfold val_main_v99 val_main_v98
  exact addRows_eq _ _

/-- The reference's running sum (stage 100): what it was plus the layer's new features. -/
theorem v100_eq (x0 : (⟨S2x3200000, .i32⟩ : BufTy).Contents (Elt Ideal)) (x1 : (⟨S100000x768, .f32⟩ : BufTy).Contents (Elt Ideal)) (x2 : (⟨S100000x64, .f32⟩ : BufTy).Contents (Elt Ideal)) (x3 : (⟨S100000x64, .f32⟩ : BufTy).Contents (Elt Ideal)) (x4 : (⟨S64x768, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal)) :
    val_main_v100 (F := Ideal) x0 x1 x2 x3 x4 x5 x6 x7 = newAcc (val_main_v94 (F := Ideal) x0 x1 x2 x3 x4 x5 x6 x7) (val_main_v97 (F := Ideal) x7) (val_main_v78 (F := Ideal) x0 x1 x2 x3 x4 x5 x6 x7) := by
  unfold val_main_v100
  rw [v99_eq]
  exact acc_eq _ _ _

end Cert.ReferenceIdeal.Stages

end
-- ==== Proof.ChainA.lean ====
/-
  The first stretch of the program read back: the launch, the transposed weights and the bias row, the fusion region, and
  the host lines up to the node degrees — each buffer that is read later, at the reference's stage of the arguments.
-/
import proofs.«130384_j68788196212816_2_alg».proof.Proof.Gen.KernelIdeal.Frame
import proofs.«130384_j68788196212816_2_alg».proof.Proof.Region0
import proofs.«130384_j68788196212816_2_alg».proof.Proof.RefStages

set_option maxRecDepth 16384
set_option quotPrecheck false

noncomputable section

namespace Cert.KernelIdeal.ChainA

open Cert.KernelIdeal Cert.KernelIdeal.Gen Idealize.ShloMosaic Idealize.ShloMosaic.TcCoe Idealize.SL.Sem Idealize.ShloMosaic.StableHlo
open Cert.ReferenceIdeal.Read (val_main_v0 val_main_v3 val_main_v5 val_main_v6 val_main_v8 val_main_v10 val_main_v14 val_main_v16 val_main_v17 val_main_v18 val_main_v19 val_main_v34 val_main_v36 val_main_v37 val_main_v50 val_main_v53 val_main_v55 val_main_v56 val_main_v58 val_main_v59 val_main_v72 val_main_v75 val_main_v77 val_main_v78 val_main_v80 val_main_v81 val_main_v94 val_main_v97 val_main_v99 val_main_v100 val_main_v102 val_main_v103 val_main_v104)
open Cert.Spec

variable (m : (ℓ : Loc nD τ sig) → Buf (Elt Ideal) ℓ) (ρ : Dev nD → PrngReg) (c : Dev nD)

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)

theorem w0_arg0 : W0 m ρ c (Proc.devRef .tc main_arg0) = A0 := rfl
theorem w0_arg1 : W0 m ρ c (Proc.devRef .tc main_arg1) = A1 := rfl
theorem w0_arg2 : W0 m ρ c (Proc.devRef .tc main_arg2) = A2 := rfl
theorem w0_arg3 : W0 m ρ c (Proc.devRef .tc main_arg3) = A3 := rfl
theorem w0_arg4 : W0 m ρ c (Proc.devRef .tc main_arg4) = A4 := rfl
theorem w0_arg5 : W0 m ρ c (Proc.devRef .tc main_arg5) = A5 := rfl
theorem w0_arg6 : W0 m ρ c (Proc.devRef .tc main_arg6) = A6 := rfl
theorem w0_arg7 : W0 m ρ c (Proc.devRef .tc main_arg7) = A7 := rfl

theorem w1_arg0 : W1 m ρ c (Proc.devRef .tc main_arg0) = A0 := by
  have h0 := w0_arg0 m ρ c
  show StableHlo.after hostOps0 (W0 m ρ c) (Proc.devRef .tc main_arg0) = _
  generalize W0 m ρ c = U at h0 ⊢
  after_results
  exact h0

theorem w1_arg1 : W1 m ρ c (Proc.devRef .tc main_arg1) = A1 := by
  have h0 := w0_arg1 m ρ c
  show StableHlo.after hostOps0 (W0 m ρ c) (Proc.devRef .tc main_arg1) = _
  generalize W0 m ρ c = U at h0 ⊢
  after_results
  exact h0

theorem w1_arg2 : W1 m ρ c (Proc.devRef .tc main_arg2) = A2 := by
  have h0 := w0_arg2 m ρ c
  show StableHlo.after hostOps0 (W0 m ρ c) (Proc.devRef .tc main_arg2) = _
  generalize W0 m ρ c = U at h0 ⊢
  after_results
  exact h0

theorem w1_arg3 : W1 m ρ c (Proc.devRef .tc main_arg3) = A3 := by
  have h0 := w0_arg3 m ρ c
  show StableHlo.after hostOps0 (W0 m ρ c) (Proc.devRef .tc main_arg3) = _
  generalize W0 m ρ c = U at h0 ⊢
  after_results
  exact h0

theorem w1_arg6 : W1 m ρ c (Proc.devRef .tc main_arg6) = A6 := by
  have h0 := w0_arg6 m ρ c
  show StableHlo.after hostOps0 (W0 m ρ c) (Proc.devRef .tc main_arg6) = _
  generalize W0 m ρ c = U at h0 ⊢
  after_results
  exact h0

theorem w1_arg7 : W1 m ρ c (Proc.devRef .tc main_arg7) = A7 := by
  have h0 := w0_arg7 m ρ c
  show StableHlo.after hostOps0 (W0 m ρ c) (Proc.devRef .tc main_arg7) = _
  generalize W0 m ρ c = U at h0 ⊢
  after_results
  exact h0

theorem w1_v0 : W1 m ρ c (Proc.devRef .tc main_v0) = val_main_v0 (F := Ideal) A4 := by
  have h0 := w0_arg4 m ρ c
  show StableHlo.after hostOps0 (W0 m ρ c) (Proc.devRef .tc main_v0) = _
  generalize W0 m ρ c = U at h0 ⊢
  after_results
  rw [h0]
  rfl

theorem w1_v1 : W1 m ρ c (Proc.devRef .tc main_v1) = val_main_v3 (F := Ideal) A5 := by
  have h0 := w0_arg5 m ρ c
  show StableHlo.after hostOps0 (W0 m ρ c) (Proc.devRef .tc main_v1) = _
  generalize W0 m ρ c = U at h0 ⊢
  after_results
  rw [h0]
  exact row_of_vec _ _ _

/-- The fusion region's result is the reference's fused item embeddings. -/
theorem w2_v2 : W2 m ρ c (Proc.devRef .tc main_v2) = val_main_v5 (F := Ideal) A1 A3 A4 A5 := by
  show W2 m ρ c (Proc.devRef .tc (Pipeline.arrRef spec0 4)) = _
  rw [W2_arr, Reg0.final (V1 m ρ) c]
  show fused (W1 m ρ c (Proc.devRef .tc main_arg1)) (W1 m ρ c (Proc.devRef .tc main_v0)) (W1 m ρ c (Proc.devRef .tc main_v1)) (W1 m ρ c (Proc.devRef .tc main_arg3)) = _
  rw [w1_arg1, w1_v0, w1_v1, w1_arg3]
  exact (Cert.ReferenceIdeal.Stages.v5_eq _ _ _ _).symm

theorem w2_arg0 : W2 m ρ c (Proc.devRef .tc main_arg0) = A0 :=
  (W2_of_ne m ρ c main_arg0 (by decide)).trans (w1_arg0 m ρ c)

theorem w2_arg2 : W2 m ρ c (Proc.devRef .tc main_arg2) = A2 :=
  (W2_of_ne m ρ c main_arg2 (by decide)).trans (w1_arg2 m ρ c)

theorem w2_arg6 : W2 m ρ c (Proc.devRef .tc main_arg6) = A6 :=
  (W2_of_ne m ρ c main_arg6 (by decide)).trans (w1_arg6 m ρ c)

theorem w2_arg7 : W2 m ρ c (Proc.devRef .tc main_arg7) = A7 :=
  (W2_of_ne m ρ c main_arg7 (by decide)).trans (w1_arg7 m ρ c)

theorem w3_v3 : W3 m ρ c (Proc.devRef .tc main_v3) = val_main_v6 (F := Ideal) A1 A2 A3 A4 A5 := by
  have h0 := w2_arg2 m ρ c
  have h1 := w2_v2 m ρ c
  show StableHlo.after hostOps1 (W2 m ρ c) (Proc.devRef .tc main_v3) = _
  generalize W2 m ρ c = U at h0 h1 ⊢
  after_results
  rw [h0, h1]
  rfl

theorem w3_v5 : W3 m ρ c (Proc.devRef .tc main_v5) = val_main_v8 (F := Ideal) A0 := by
  have h0 := w2_arg0 m ρ c
  show StableHlo.after hostOps1 (W2 m ρ c) (Proc.devRef .tc main_v5) = _
  generalize W2 m ρ c = U at h0 ⊢
  after_results
  rw [h0]
  rfl

theorem w3_v7 : W3 m ρ c (Proc.devRef .tc main_v7) = val_main_v10 (F := Ideal) A0 := by
  have h0 := w2_arg0 m ρ c
  show StableHlo.after hostOps1 (W2 m ρ c) (Proc.devRef .tc main_v7) = _
  generalize W2 m ρ c = U at h0 ⊢
  after_results
  rw [h0]
  rfl

theorem w3_v11 : W3 m ρ c (Proc.devRef .tc main_v11) = val_main_v14 (F := Ideal) A0 := by
  have h0 := w2_arg0 m ρ c
  show StableHlo.after hostOps1 (W2 m ρ c) (Proc.devRef .tc main_v11) = _
  generalize W2 m ρ c = U at h0 ⊢
  after_results
  rw [h0]
  rfl

theorem w3_v13 : W3 m ρ c (Proc.devRef .tc main_v13) = val_main_v16 (F := Ideal) A0 := by
  have h0 := w2_arg0 m ρ c
  show StableHlo.after hostOps1 (W2 m ρ c) (Proc.devRef .tc main_v13) = _
  generalize W2 m ρ c = U at h0 ⊢
  after_results
  rw [h0]
  rfl

theorem w3_arg6 : W3 m ρ c (Proc.devRef .tc main_arg6) = A6 := by
  have h0 := w2_arg6 m ρ c
  show StableHlo.after hostOps1 (W2 m ρ c) (Proc.devRef .tc main_arg6) = _
  generalize W2 m ρ c = U at h0 ⊢
  after_results
  exact h0

theorem w3_arg7 : W3 m ρ c (Proc.devRef .tc main_arg7) = A7 := by
  have h0 := w2_arg7 m ρ c
  show StableHlo.after hostOps1 (W2 m ρ c) (Proc.devRef .tc main_arg7) = _
  generalize W2 m ρ c = U at h0 ⊢
  after_results
  exact h0

end Cert.KernelIdeal.ChainA

end
-- ==== Proof.Region1.lean ====
/-
  The layer projection as a pipelined region over twenty row tiles of 10000 rows: whatever the feature array X and the
  weight array W hold when the region is entered, the result array ends holding X · W, entry by entry — tile t's
  block is rows 10000·t … 10000·t + 9999 of the product, and the twenty tiles cover the rows.
-/
import proofs.«130384_j68788196212816_2_alg».proof.Proof.Gen.KernelIdeal.Frame
import proofs.«130384_j68788196212816_2_alg».proof.Proof.Payloads
import proofs.«130384_j68788196212816_2_alg».proof.Proof.Spec

set_option maxRecDepth 16384

noncomputable section

open scoped BigOperators

namespace Cert.KernelIdeal.Reg1

open Cert.KernelIdeal Cert.KernelIdeal.Gen Idealize.ShloMosaic Idealize.ShloMosaic.TcCoe Idealize.ShloMosaic.ValueIdx
open Idealize.ShloMosaic.Pipeline (Dat Cfg Window)
open Cert.Spec

variable (V : (c : Dev nD) → (b : Ref sig .tc) → Buf (Elt Ideal) ((c : Thread nD τ).loc b))

theorem zeros : (![0, 0] : Fin 2 → Nat) = fun _ => 0 := funext fun a => by fin_cases a <;> rfl

/-- The index maps over the grid: the feature and result windows move down the rows with the tile, the weights stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What tile t writes back is tile t's block of the product. -/
theorem flushed_eq (c : Dev nD) (t : Fin cfg1.N) :
    (dat1 V c).flushed 2 t = ((cfg1.win 2).blk t).view.read (Elt Ideal) (matProd (V c main_v3) (V c main_v36)) := by
  show (cfg1.win 2).cut (grid1.coords t) ((dat1 V c).after 2 t) = _
  rw [after1_2]
  unfold out1_2
  rw [View.canon_unit_zero zeros]
  simp only [View.ld_unit_zero (S := S10000x64) zeros, View.ld_unit_zero (S := S64x64) zeros]
  obtain ⟨e0, e1, e2, e3, e4, e5⟩ := idx_facts t
  funext y
  obtain ⟨r, j, rfl⟩ : ∃ (r : Fin 10000) (j : Fin 64), y = ix2 r j := ⟨y 0, y 1, eq_ix2 y⟩
  refine (Pay.proj1_apply _ _ r j).trans ?_
  show _ = matProd (V c main_v3) (V c main_v36) (((cfg1.win 2).blk t).view.emb (ix2 r j))
  unfold matProd
  refine Finset.sum_congr rfl fun k _ => ?_
  have hx : ((cfg1.win 0).blk t).view.emb (ix2 r k) = ix2 ((((cfg1.win 2).blk t).view.emb (ix2 r j)) 0) k := by
    funext a; apply Fin.ext
    match a with
    | ⟨0, _⟩ => show win1_0.index t (0 : Fin 2) * 10000 + 1 * r.val = win1_2.index t (0 : Fin 2) * 10000 + 1 * r.val; omega
    | ⟨1, _⟩ => show win1_0.index t (1 : Fin 2) * 64 + 1 * k.val = k.val; omega
  have hw : ((cfg1.win 1).blk t).view.emb (ix2 k j) = ix2 k ((((cfg1.win 2).blk t).view.emb (ix2 r j)) 1) := by
    funext a; apply Fin.ext
    match a with
    | ⟨0, _⟩ => show win1_1.index t (0 : Fin 2) * 64 + 1 * k.val = k.val; omega
    | ⟨1, _⟩ => show win1_1.index t (1 : Fin 2) * 64 + 1 * j.val = win1_2.index t (1 : Fin 2) * 64 + 1 * j.val; omega
  show (fun (X : Mat 200000 64) (W : Mat 64 64) =>
      X (((cfg1.win 0).blk t).view.emb (ix2 r k)) * W (((cfg1.win 1).blk t).view.emb (ix2 k j))) (V c main_v3) (V c main_v36) = _
  rw [hx, hw]
  try rfl

/-- An index of the result array is in tile t's block iff each coordinate is in the block's range on its axis. -/
theorem mem_blk (t : Fin cfg1.N) (i : S200000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v37).slice (win1_2.rect t)).set ↔ _
  rw [View.set_slice_whole, Rect.mem_set_unit]
  exact Iff.rfl

/-- Row i is in the block of tile ⌊i / 10000⌋. -/
theorem cover (i : S200000x64.Idx) : ∃ t : Fin cfg1.N, (cfg1.win 2).flush t = true ∧ i ∈ ((cfg1.win 2).blk t).view.set := by
  have hi0 : (i 0).val < 200000 := (i 0).isLt
  have hi1 : (i 1).val < 64 := (i 1).isLt
  have hN : (i 0).val / 10000 < cfg1.N := by show _ < grid1.N; rw [N_1]; omega
  obtain ⟨e0, e1, e2, e3, e4, e5⟩ := idx_facts ⟨(i 0).val / 10000, hN⟩
  refine ⟨⟨(i 0).val / 10000, hN⟩, flush1_2 _, ?_⟩
  rw [mem_blk]
  intro a
  match a with
  | ⟨0, _⟩ =>
    show win1_2.index ⟨(i 0).val / 10000, hN⟩ (0 : Fin 2) * 10000 ≤ (i 0).val ∧ (i 0).val < win1_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, hN⟩ (1 : Fin 2) * 64 ≤ (i 1).val ∧ (i 1).val < win1_2.index ⟨(i 0).val / 10000, hN⟩ (1 : Fin 2) * 64 + 64
    rw [e5]; omega

/-- The result array after the region: the product of the two arrays the region found. -/
theorem final (c : Dev nD) : (dat1 V c).arrAt 2 cfg1.N = matProd (V c main_v3) (V c main_v36) :=
  (dat1 V c).arrAt_eq_of_cover 2 _ (fun t _ => flushed_eq V c t) cover

end Cert.KernelIdeal.Reg1

end
-- ==== Proof.Region2.lean ====
/-
  The close of a layer as a pipelined region over twenty row tiles of 10000 rows: whatever the aggregated messages S, the
  bias row B and the running sum A hold when the region is entered, the new-feature array ends holding S + B (the bias
  down every row) and the new running sum A + (S + B), entry by entry; the twenty tiles cover the rows of both.
-/
import proofs.«130384_j68788196212816_2_alg».proof.Proof.Gen.KernelIdeal.Frame
import proofs.«130384_j68788196212816_2_alg».proof.Proof.Payloads
import proofs.«130384_j68788196212816_2_alg».proof.Proof.Spec

set_option maxRecDepth 16384

noncomputable section

open scoped BigOperators

namespace Cert.KernelIdeal.Reg2

open Cert.KernelIdeal Cert.KernelIdeal.Gen Idealize.ShloMosaic Idealize.ShloMosaic.TcCoe Idealize.ShloMosaic.ValueIdx
open Idealize.ShloMosaic.Pipeline (Dat Cfg Window)
open Cert.Spec

variable (V : (c : Dev nD) → (b : Ref sig .tc) → Buf (Elt Ideal) ((c : Thread nD τ).loc b))

theorem zeros : (![0, 0] : Fin 2 → Nat) = fun _ => 0 := funext fun a => by fin_cases a <;> rfl

/-- The index maps over the grid: the four full-size windows move down the rows with the tile, the bias row stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- What tile t writes back through window 3 is tile t's block of the new features. -/
theorem flushed3_eq (c : Dev nD) (t : Fin cfg2.N) :
    (dat2 V c).flushed 3 t = ((cfg2.win 3).blk t).view.read (Elt Ideal) (newX (V c main_v50) (V c main_v53)) := by
  show (cfg2.win 3).cut (grid2.coords t) ((dat2 V c).after 3 t) = _
  rw [after2_3]
  unfold out2_3
  rw [View.canon_unit_zero zeros]
  simp only [View.ld_unit_zero (S := S10000x64) zeros, View.ld_unit_zero (S := S1x64) zeros]
  obtain ⟨e0, e1, e2, e3, e4, e5, e6, e7, e8, e9⟩ := idx_facts t
  funext y
  obtain ⟨r, j, rfl⟩ : ∃ (r : Fin 10000) (j : Fin 64), y = ix2 r j := ⟨y 0, y 1, eq_ix2 y⟩
  refine (Pay.close2_x_apply _ _ r j).trans ?_
  have hs : ((cfg2.win 0).blk t).view.emb (ix2 r j) = ((cfg2.win 3).blk t).view.emb (ix2 r j) := by
    funext a; apply Fin.ext
    match a with
    | ⟨0, _⟩ => show win2_0.index t (0 : Fin 2) * 10000 + 1 * r.val = win2_3.index t (0 : Fin 2) * 10000 + 1 * r.val; omega
    | ⟨1, _⟩ => show win2_0.index t (1 : Fin 2) * 64 + 1 * j.val = win2_3.index t (1 : Fin 2) * 64 + 1 * j.val; omega
  have hb : ((cfg2.win 1).blk t).view.emb (ix2 0 j) = ix2 0 ((((cfg2.win 3).blk t).view.emb (ix2 r j)) 1) := by
    funext a; apply Fin.ext
    match a with
    | ⟨0, _⟩ => show win2_1.index t (0 : Fin 2) * 1 + 1 * 0 = 0; omega
    | ⟨1, _⟩ => show win2_1.index t (1 : Fin 2) * 64 + 1 * j.val = win2_3.index t (1 : Fin 2) * 64 + 1 * j.val; omega
  have ha : ((cfg2.win 2).blk t).view.emb (ix2 r j) = ((cfg2.win 3).blk t).view.emb (ix2 r j) := by
    funext a; apply Fin.ext
    match a with
    | ⟨0, _⟩ => show win2_2.index t (0 : Fin 2) * 10000 + 1 * r.val = win2_3.index t (0 : Fin 2) * 10000 + 1 * r.val; omega
    | ⟨1, _⟩ => show win2_2.index t (1 : Fin 2) * 64 + 1 * j.val = win2_3.index t (1 : Fin 2) * 64 + 1 * j.val; omega
  show (fun (S : Mat 200000 64) (B : Mat 1 64) =>
      S (((cfg2.win 0).blk t).view.emb (ix2 r j)) + B (((cfg2.win 1).blk t).view.emb (ix2 0 j))) (V c main_v50) (V c main_v53)
    = newX (V c main_v50) (V c main_v53) (((cfg2.win 3).blk t).view.emb (ix2 r j))
  unfold newX
  rw [hs, hb]
  try rfl

/-- An index of window 3's array is in tile t's block iff each coordinate is in the block's range on its axis. -/
theorem mem_blk3 (t : Fin cfg2.N) (i : S200000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v54_0).slice (win2_3.rect t)).set ↔ _
  rw [View.set_slice_whole, Rect.mem_set_unit]
  exact Iff.rfl

/-- Row i is in the block of tile ⌊i / 10000⌋ (window 3). -/
theorem cover3 (i : S200000x64.Idx) : ∃ t : Fin cfg2.N, (cfg2.win 3).flush t = true ∧ i ∈ ((cfg2.win 3).blk t).view.set := by
  have hi0 : (i 0).val < 200000 := (i 0).isLt
  have hi1 : (i 1).val < 64 := (i 1).isLt
  have hN : (i 0).val / 10000 < cfg2.N := by show _ < grid2.N; rw [N_2]; omega
  obtain ⟨e0, e1, e2, e3, e4, e5, e6, e7, e8, e9⟩ := idx_facts ⟨(i 0).val / 10000, hN⟩
  refine ⟨⟨(i 0).val / 10000, hN⟩, flush2_3 _, ?_⟩
  rw [mem_blk3]
  intro a
  match a with
  | ⟨0, _⟩ =>
    show win2_3.index ⟨(i 0).val / 10000, hN⟩ (0 : Fin 2) * 10000 ≤ (i 0).val ∧ (i 0).val < win2_3.index ⟨(i 0).val / 10000, hN⟩ (0 : Fin 2) * 10000 + 10000
    rw [e6]; show (i 0).val / 10000 * 10000 ≤ (i 0).val ∧ (i 0).val < (i 0).val / 10000 * 10000 + 10000; omega
  | ⟨1, _⟩ =>
    show win2_3.index ⟨(i 0).val / 10000, hN⟩ (1 : Fin 2) * 64 ≤ (i 1).val ∧ (i 1).val < win2_3.index ⟨(i 0).val / 10000, hN⟩ (1 : Fin 2) * 64 + 64
    rw [e7]; omega

/-- Window 3's array after the region: the new features of the arrays the region found. -/
theorem final3 (c : Dev nD) : (dat2 V c).arrAt 3 cfg2.N = newX (V c main_v50) (V c main_v53) :=
  (dat2 V c).arrAt_eq_of_cover 3 _ (fun t _ => flushed3_eq V c t) cover3

/-- What tile t writes back through window 4 is tile t's block of the new running sum. -/
theorem flushed4_eq (c : Dev nD) (t : Fin cfg2.N) :
    (dat2 V c).flushed 4 t = ((cfg2.win 4).blk t).view.read (Elt Ideal) (newAcc (V c main_v50) (V c main_v53) (V c main_v3)) := by
  show (cfg2.win 4).cut (grid2.coords t) ((dat2 V c).after 4 t) = _
  rw [after2_4]
  unfold out2_4
  rw [View.canon_unit_zero zeros]
  simp only [View.ld_unit_zero (S := S10000x64) zeros, View.ld_unit_zero (S := S1x64) zeros]
  obtain ⟨e0, e1, e2, e3, e4, e5, e6, e7, e8, e9⟩ := idx_facts t
  funext y
  obtain ⟨r, j, rfl⟩ : ∃ (r : Fin 10000) (j : Fin 64), y = ix2 r j := ⟨y 0, y 1, eq_ix2 y⟩
  refine (Pay.close2_acc_apply _ _ _ r j).trans ?_
  have hs : ((cfg2.win 0).blk t).view.emb (ix2 r j) = ((cfg2.win 4).blk t).view.emb (ix2 r j) := by
    funext a; apply Fin.ext
    match a with
    | ⟨0, _⟩ => show win2_0.index t (0 : Fin 2) * 10000 + 1 * r.val = win2_4.index t (0 : Fin 2) * 10000 + 1 * r.val; omega
    | ⟨1, _⟩ => show win2_0.index t (1 : Fin 2) * 64 + 1 * j.val = win2_4.index t (1 : Fin 2) * 64 + 1 * j.val; omega
  have hb : ((cfg2.win 1).blk t).view.emb (ix2 0 j) = ix2 0 ((((cfg2.win 4).blk t).view.emb (ix2 r j)) 1) := by
    funext a; apply Fin.ext
    match a with
    | ⟨0, _⟩ => show win2_1.index t (0 : Fin 2) * 1 + 1 * 0 = 0; omega
    | ⟨1, _⟩ => show win2_1.index t (1 : Fin 2) * 64 + 1 * j.val = win2_4.index t (1 : Fin 2) * 64 + 1 * j.val; omega
  have ha : ((cfg2.win 2).blk t).view.emb (ix2 r j) = ((cfg2.win 4).blk t).view.emb (ix2 r j) := by
    funext a; apply Fin.ext
    match a with
    | ⟨0, _⟩ => show win2_2.index t (0 : Fin 2) * 10000 + 1 * r.val = win2_4.index t (0 : Fin 2) * 10000 + 1 * r.val; omega
    | ⟨1, _⟩ => show win2_2.index t (1 : Fin 2) * 64 + 1 * j.val = win2_4.index t (1 : Fin 2) * 64 + 1 * j.val; omega
  show (fun (S : Mat 200000 64) (B : Mat 1 64) (A : Mat 200000 64) =>
      A (((cfg2.win 2).blk t).view.emb (ix2 r j)) + (S (((cfg2.win 0).blk t).view.emb (ix2 r j)) + B (((cfg2.win 1).blk t).view.emb (ix2 0 j))))
      (V c main_v50) (V c main_v53) (V c main_v3)
    = newAcc (V c main_v50) (V c main_v53) (V c main_v3) (((cfg2.win 4).blk t).view.emb (ix2 r j))
  unfold newAcc
  rw [hs, hb, ha]
  try rfl

/-- An index of window 4's array is in tile t's block iff each coordinate is in the block's range on its axis. -/
theorem mem_blk4 (t : Fin cfg2.N) (i : S200000x64.Idx) :
    i ∈ ((cfg2.win 4).blk t).view.set ↔ ∀ a : Fin 2, win2_4.index t a * S10000x64.size a ≤ (i a).val ∧ (i a).val < win2_4.index t a * S10000x64.size a + S10000x64.size a := by
  show i ∈ ((View.whole main_v54_1).slice (win2_4.rect t)).set ↔ _
  rw [View.set_slice_whole, Rect.mem_set_unit]
  exact Iff.rfl

/-- Row i is in the block of tile ⌊i / 10000⌋ (window 4). -/
theorem cover4 (i : S200000x64.Idx) : ∃ t : Fin cfg2.N, (cfg2.win 4).flush t = true ∧ i ∈ ((cfg2.win 4).blk t).view.set := by
  have hi0 : (i 0).val < 200000 := (i 0).isLt
  have hi1 : (i 1).val < 64 := (i 1).isLt
  have hN : (i 0).val / 10000 < cfg2.N := by show _ < grid2.N; rw [N_2]; omega
  obtain ⟨e0, e1, e2, e3, e4, e5, e6, e7, e8, e9⟩ := idx_facts ⟨(i 0).val / 10000, hN⟩
  refine ⟨⟨(i 0).val / 10000, hN⟩, flush2_4 _, ?_⟩
  rw [mem_blk4]
  intro a
  match a with
  | ⟨0, _⟩ =>
    show win2_4.index ⟨(i 0).val / 10000, hN⟩ (0 : Fin 2) * 10000 ≤ (i 0).val ∧ (i 0).val < win2_4.index ⟨(i 0).val / 10000, hN⟩ (0 : Fin 2) * 10000 + 10000
    rw [e8]; show (i 0).val / 10000 * 10000 ≤ (i 0).val ∧ (i 0).val < (i 0).val / 10000 * 10000 + 10000; omega
  | ⟨1, _⟩ =>
    show win2_4.index ⟨(i 0).val / 10000, hN⟩ (1 : Fin 2) * 64 ≤ (i 1).val ∧ (i 1).val < win2_4.index ⟨(i 0).val / 10000, hN⟩ (1 : Fin 2) * 64 + 64
    rw [e9]; omega

/-- Window 4's array after the region: the new running sum of the arrays the region found. -/
theorem final4 (c : Dev nD) : (dat2 V c).arrAt 4 cfg2.N = newAcc (V c main_v50) (V c main_v53) (V c main_v3) :=
  (dat2 V c).arrAt_eq_of_cover 4 _ (fun t _ => flushed4_eq V c t) cover4

end Cert.KernelIdeal.Reg2

end
-- ==== Proof.LibTypedRefs.lean ====
/-
  Reading a straight line of host operations back, one stretch at a time.

  * The contents after two lists of operations run one after the other are the second list's fold from the first
    list's (`after_append`): a long line is read a stretch at a time, the few buffers a later stretch reads named
    before it reads them, instead of one term in which every shared intermediate is written out once per use.
  * An operation inside a called function reads and writes its buffers through a typed reference: the value is
    transported along the equation "the buffer's type is the value's type". At a literal reference whose declared type
    is the buffer's own the transport is the identity, in both directions (`ofBuf_self`, `toBuf_self`). Rewrite with
    these (by `rw`: they are stated at `T := r.ty`, which a syntactic matcher does not see through) BEFORE comparing the
    read-back term with a closed form: with a transport left around a selection or a comparison, deciding the
    selection's condition forces the operands — a scatter over every edge, say — at a symbolic index.
-/
import Idealize.ShloMosaic.Lib.StableHlo.Run

noncomputable section

namespace Idealize.ShloMosaic.StableHlo

variable {nD : Nat} {τ : Topo} {sig : RefSig} {Val : EltTy → Type}

/-- The contents after two lists run one after the other: the second list's fold from the first list's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents read through a literal reference at the buffer's own type are the contents. -/
theorem TRef.ofBuf_self (r : Ref sig .tc) (h : r.ty = r.ty) (hd : r.space ≠ .host) (hu : r.isScoped = false)
    (v : r.ty.Contents Val) : (TRef.of (T := r.ty) r h hd hu).ofBuf v = v := rfl

/-- Contents written through a literal reference at the buffer's own type are the contents. -/
theorem TRef.toBuf_self (r : Ref sig .tc) (h : r.ty = r.ty) (hd : r.space ≠ .host) (hu : r.isScoped = false)
    (v : r.ty.Contents Val) : (TRef.of (T := r.ty) r h hd hu).toBuf v = v := rfl

end Idealize.ShloMosaic.StableHlo

end
-- ==== Proof.ChainB.lean ====
/-
  The degree normalisation and the first layer read back: the inverse square root of the degree where it is positive
  (the guarded form the program computes is the unguarded one wherever it is selected), the edge weights, the layer's
  projection region, the gather / scale / scatter lines, and the layer's close region.
-/
import proofs.«130384_j68788196212816_2_alg».proof.Proof.Gen.KernelIdeal.Frame
import proofs.«130384_j68788196212816_2_alg».proof.Proof.ChainA
import proofs.«130384_j68788196212816_2_alg».proof.Proof.Region1
import proofs.«130384_j68788196212816_2_alg».proof.Proof.Region2
import proofs.«130384_j68788196212816_2_alg».proof.Proof.RefStages
import proofs.«130384_j68788196212816_2_alg».proof.Proof.LibTypedRefs

set_option maxRecDepth 16384
set_option quotPrecheck false

noncomputable section

namespace Cert.KernelIdeal.ChainB

open Cert.KernelIdeal Cert.KernelIdeal.Gen Idealize.ShloMosaic Idealize.ShloMosaic.TcCoe Idealize.SL.Sem Idealize.ShloMosaic.StableHlo
open Cert.ReferenceIdeal.Read (val_main_v0 val_main_v3 val_main_v5 val_main_v6 val_main_v8 val_main_v10 val_main_v14 val_main_v16 val_main_v17 val_main_v18 val_main_v19 val_main_v34 val_main_v36 val_main_v37 val_main_v50 val_main_v53 val_main_v55 val_main_v56 val_main_v58 val_main_v59 val_main_v72 val_main_v75 val_main_v77 val_main_v78 val_main_v80 val_main_v81 val_main_v94 val_main_v97 val_main_v99 val_main_v100 val_main_v102 val_main_v103 val_main_v104)
open Cert.Spec
open Cert.KernelIdeal.ChainA
variable (m : (ℓ : Loc nD τ sig) → Buf (Elt Ideal) ℓ) (ρ : Dev nD → PrngReg) (c : Dev nD)

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)

/-- The mask "the degree is positive", spelt as the comparison itself. -/
theorem w3_mask : W3 m ρ c (Proc.devRef .tc main_v13) = cmpf (F := Ideal) .ogt (val_main_v14 (F := Ideal) A0) (broadcastInDim S200000 ![] bcast_S_S200000 (constant S_ .f32 0x00000000#32)) := by
  have h0 := w2_arg0 m ρ c
  show StableHlo.after hostOps1 (W2 m ρ c) (Proc.devRef .tc main_v13) = _
  generalize W2 m ρ c = U at h0 ⊢
  after_results
  rw [h0]
  rfl

theorem w6_v19 : W6 m ρ c (Proc.devRef .tc main_v19) = val_main_v19 (F := Ideal) A0 := by
  have h0 := w3_v11 m ρ c
  have h1 := w3_mask m ρ c
  show StableHlo.after hostOps1_3 (StableHlo.after hostOps1_2 (StableHlo.after hostOps1_1 (W3 m ρ c))) (Proc.devRef .tc main_v19) = _
  generalize W3 m ρ c = U at h0 h1 ⊢
  after_results
  rw [h0, h1]
  repeat (first | rw [TRef.ofBuf_self] | rw [TRef.toBuf_self])
  rw [select_pow_select]
  rfl

set_option maxHeartbeats 4000000 in
theorem w6_v3 : W6 m ρ c (Proc.devRef .tc main_v3) = val_main_v6 (F := Ideal) A1 A2 A3 A4 A5 := by
  have h0 := w3_v3 m ρ c
  show StableHlo.after hostOps1_3 (StableHlo.after hostOps1_2 (StableHlo.after hostOps1_1 (W3 m ρ c))) (Proc.devRef .tc main_v3) = _
  generalize W3 m ρ c = U at h0 ⊢
  after_results_simp
  exact h0

set_option maxHeartbeats 4000000 in
theorem w6_v5 : W6 m ρ c (Proc.devRef .tc main_v5) = val_main_v8 (F := Ideal) A0 := by
  have h0 := w3_v5 m ρ c
  show StableHlo.after hostOps1_3 (StableHlo.after hostOps1_2 (StableHlo.after hostOps1_1 (W3 m ρ c))) (Proc.devRef .tc main_v5) = _
  generalize W3 m ρ c = U at h0 ⊢
  after_results_simp
  exact h0

set_option maxHeartbeats 4000000 in
theorem w6_v7 : W6 m ρ c (Proc.devRef .tc main_v7) = val_main_v10 (F := Ideal) A0 := by
  have h0 := w3_v7 m ρ c
  show StableHlo.after hostOps1_3 (StableHlo.after hostOps1_2 (StableHlo.after hostOps1_1 (W3 m ρ c))) (Proc.devRef .tc main_v7) = _
  generalize W3 m ρ c = U at h0 ⊢
  after_results_simp
  exact h0

set_option maxHeartbeats 4000000 in
theorem w6_arg6 : W6 m ρ c (Proc.devRef .tc main_arg6) = A6 := by
  have h0 := w3_arg6 m ρ c
  show StableHlo.after hostOps1_3 (StableHlo.after hostOps1_2 (StableHlo.after hostOps1_1 (W3 m ρ c))) (Proc.devRef .tc main_arg6) = _
  generalize W3 m ρ c = U at h0 ⊢
  after_results_simp
  exact h0

set_option maxHeartbeats 4000000 in
theorem w6_arg7 : W6 m ρ c (Proc.devRef .tc main_arg7) = A7 := by
  have h0 := w3_arg7 m ρ c
  show StableHlo.after hostOps1_3 (StableHlo.after hostOps1_2 (StableHlo.after hostOps1_1 (W3 m ρ c))) (Proc.devRef .tc main_arg7) = _
  generalize W3 m ρ c = U at h0 ⊢
  after_results_simp
  exact h0

set_option maxHeartbeats 4000000 in
theorem w7_v34 : W7 m ρ c (Proc.devRef .tc main_v34) = val_main_v34 (F := Ideal) A0 := by
  have h0 := w6_v19 m ρ c
  have h1 := w6_v5 m ρ c
  have h2 := w6_v7 m ρ c
  show StableHlo.after hostOps1_4 (W6 m ρ c) (Proc.devRef .tc main_v34) = _
  generalize W6 m ρ c = U at h0 h1 h2 ⊢
  after_results_simp
  rw [h0, h1, h2]
  rfl

set_option maxHeartbeats 4000000 in
theorem w7_v36 : W7 m ρ c (Proc.devRef .tc main_v36) = val_main_v36 (F := Ideal) A6 := by
  have h0 := w6_arg6 m ρ c
  show StableHlo.after hostOps1_4 (W6 m ρ c) (Proc.devRef .tc main_v36) = _
  generalize W6 m ρ c = U at h0 ⊢
  after_results_simp
  rw [h0]
  rfl

set_option maxHeartbeats 4000000 in
theorem w7_v3 : W7 m ρ c (Proc.devRef .tc main_v3) = val_main_v6 (F := Ideal) A1 A2 A3 A4 A5 := by
  have h0 := w6_v3 m ρ c
  show StableHlo.after hostOps1_4 (W6 m ρ c) (Proc.devRef .tc main_v3) = _
  generalize W6 m ρ c = U at h0 ⊢
  after_results_simp
  exact h0

set_option maxHeartbeats 4000000 in
theorem w7_v5 : W7 m ρ c (Proc.devRef .tc main_v5) = val_main_v8 (F := Ideal) A0 := by
  have h0 := w6_v5 m ρ c
  show StableHlo.after hostOps1_4 (W6 m ρ c) (Proc.devRef .tc main_v5) = _
  generalize W6 m ρ c = U at h0 ⊢
  after_results_simp
  exact h0

set_option maxHeartbeats 4000000 in
theorem w7_v7 : W7 m ρ c (Proc.devRef .tc main_v7) = val_main_v10 (F := Ideal) A0 := by
  have h0 := w6_v7 m ρ c
  show StableHlo.after hostOps1_4 (W6 m ρ c) (Proc.devRef .tc main_v7) = _
  generalize W6 m ρ c = U at h0 ⊢
  after_results_simp
  exact h0

set_option maxHeartbeats 4000000 in
theorem w7_arg6 : W7 m ρ c (Proc.devRef .tc main_arg6) = A6 := by
  have h0 := w6_arg6 m ρ c
  show StableHlo.after hostOps1_4 (W6 m ρ c) (Proc.devRef .tc main_arg6) = _
  generalize W6 m ρ c = U at h0 ⊢
  after_results_simp
  exact h0

set_option maxHeartbeats 4000000 in
theorem w7_arg7 : W7 m ρ c (Proc.devRef .tc main_arg7) = A7 := by
  have h0 := w6_arg7 m ρ c
  show StableHlo.after hostOps1_4 (W6 m ρ c) (Proc.devRef .tc main_arg7) = _
  generalize W6 m ρ c = U at h0 ⊢
  after_results_simp
  exact h0

/-- Region 1's result is the reference's layer projection. -/
theorem w8_v37 : W8 m ρ c (Proc.devRef .tc main_v37) = val_main_v37 (F := Ideal) A1 A2 A3 A4 A5 A6 := by
  show W8 m ρ c (Proc.devRef .tc (Pipeline.arrRef spec1 2)) = _
  rw [W8_arr, Reg1.final (V7 m ρ) c]
  show matProd (W7 m ρ c (Proc.devRef .tc main_v3)) (W7 m ρ c (Proc.devRef .tc main_v36)) = _
  rw [w7_v3, w7_v36]
  exact (Cert.ReferenceIdeal.Stages.v37_eq _ _ _ _ _ _).symm

theorem w8_v3 : W8 m ρ c (Proc.devRef .tc main_v3) = val_main_v6 (F := Ideal) A1 A2 A3 A4 A5 :=
  ((W8_arr m ρ c 0).trans (((dat1 (V7 m ρ) c).arrAt_in 0 rfl _).trans (A_eq1 (V7 m ρ) c 0))).trans (w7_v3 m ρ c)

theorem w8_v5 : W8 m ρ c (Proc.devRef .tc main_v5) = val_main_v8 (F := Ideal) A0 :=
  (W8_of_ne m ρ c main_v5 (by decide)).trans (w7_v5 m ρ c)

theorem w8_v7 : W8 m ρ c (Proc.devRef .tc main_v7) = val_main_v10 (F := Ideal) A0 :=
  (W8_of_ne m ρ c main_v7 (by decide)).trans (w7_v7 m ρ c)

theorem w8_v34 : W8 m ρ c (Proc.devRef .tc main_v34) = val_main_v34 (F := Ideal) A0 :=
  (W8_of_ne m ρ c main_v34 (by decide)).trans (w7_v34 m ρ c)

theorem w8_arg6 : W8 m ρ c (Proc.devRef .tc main_arg6) = A6 :=
  (W8_of_ne m ρ c main_arg6 (by decide)).trans (w7_arg6 m ρ c)

theorem w8_arg7 : W8 m ρ c (Proc.devRef .tc main_arg7) = A7 :=
  (W8_of_ne m ρ c main_arg7 (by decide)).trans (w7_arg7 m ρ c)

set_option maxHeartbeats 4000000 in
theorem w9_v50 : W9 m ρ c (Proc.devRef .tc main_v50) = val_main_v50 (F := Ideal) A0 A1 A2 A3 A4 A5 A6 := by
  have h0 := w8_v34 m ρ c
  have h1 := w8_v5 m ρ c
  have h2 := w8_v7 m ρ c
  have h3 := w8_v37 m ρ c
  show StableHlo.after hostOps2 (W8 m ρ c) (Proc.devRef .tc main_v50) = _
  generalize W8 m ρ c = U at h0 h1 h2 h3 ⊢
  after_results_simp
  rw [h0, h1, h2, h3]
  rfl

set_option maxHeartbeats 4000000 in
theorem w9_v53 : W9 m ρ c (Proc.devRef .tc main_v53) = val_main_v53 (F := Ideal) A7 := by
  have h0 := w8_arg7 m ρ c
  show StableHlo.after hostOps2 (W8 m ρ c) (Proc.devRef .tc main_v53) = _
  generalize W8 m ρ c = U at h0 ⊢
  after_results_simp
  rw [h0]
  exact row_of_vec _ _ _

set_option maxHeartbeats 4000000 in
theorem w9_v3 : W9 m ρ c (Proc.devRef .tc main_v3) = val_main_v6 (F := Ideal) A1 A2 A3 A4 A5 := by
  have h0 := w8_v3 m ρ c
  show StableHlo.after hostOps2 (W8 m ρ c) (Proc.devRef .tc main_v3) = _
  generalize W8 m ρ c = U at h0 ⊢
  after_results_simp
  exact h0

set_option maxHeartbeats 4000000 in
theorem w9_v5 : W9 m ρ c (Proc.devRef .tc main_v5) = val_main_v8 (F := Ideal) A0 := by
  have h0 := w8_v5 m ρ c
  show StableHlo.after hostOps2 (W8 m ρ c) (Proc.devRef .tc main_v5) = _
  generalize W8 m ρ c = U at h0 ⊢
  after_results_simp
  exact h0

set_option maxHeartbeats 4000000 in
theorem w9_v7 : W9 m ρ c (Proc.devRef .tc main_v7) = val_main_v10 (F := Ideal) A0 := by
  have h0 := w8_v7 m ρ c
  show StableHlo.after hostOps2 (W8 m ρ c) (Proc.devRef .tc main_v7) = _
  generalize W8 m ρ c = U at h0 ⊢
  after_results_simp
  exact h0

set_option maxHeartbeats 4000000 in
theorem w9_v34 : W9 m ρ c (Proc.devRef .tc main_v34) = val_main_v34 (F := Ideal) A0 := by
  have h0 := w8_v34 m ρ c
  show StableHlo.after hostOps2 (W8 m ρ c) (Proc.devRef .tc main_v34) = _
  generalize W8 m ρ c = U at h0 ⊢
  after_results_simp
  exact h0

set_option maxHeartbeats 4000000 in
theorem w9_arg6 : W9 m ρ c (Proc.devRef .tc main_arg6) = A6 := by
  have h0 := w8_arg6 m ρ c
  show StableHlo.after hostOps2 (W8 m ρ c) (Proc.devRef .tc main_arg6) = _
  generalize W8 m ρ c = U at h0 ⊢
  after_results_simp
  exact h0

set_option maxHeartbeats 4000000 in
theorem w9_arg7 : W9 m ρ c (Proc.devRef .tc main_arg7) = A7 := by
  have h0 := w8_arg7 m ρ c
  show StableHlo.after hostOps2 (W8 m ρ c) (Proc.devRef .tc main_arg7) = _
  generalize W8 m ρ c = U at h0 ⊢
  after_results_simp
  exact h0

/-- Region 2's new features are the reference's. -/
theorem w10_v54_0 : W10 m ρ c (Proc.devRef .tc main_v54_0) = val_main_v55 (F := Ideal) A0 A1 A2 A3 A4 A5 A6 A7 := by
  show W10 m ρ c (Proc.devRef .tc (Pipeline.arrRef spec2 3)) = _
  rw [W10_arr, Reg2.final3 (V9 m ρ) c]
  show newX (W9 m ρ c (Proc.devRef .tc main_v50)) (W9 m ρ c (Proc.devRef .tc main_v53)) = _
  rw [w9_v50, w9_v53]
  exact (Cert.ReferenceIdeal.Stages.v55_eq _ _ _ _ _ _ _ _).symm

/-- Region 2's running sum is the reference's. -/
theorem w10_v54_1 : W10 m ρ c (Proc.devRef .tc main_v54_1) = val_main_v56 (F := Ideal) A0 A1 A2 A3 A4 A5 A6 A7 := by
  show W10 m ρ c (Proc.devRef .tc (Pipeline.arrRef spec2 4)) = _
  rw [W10_arr, Reg2.final4 (V9 m ρ) c]
  show newAcc (W9 m ρ c (Proc.devRef .tc main_v50)) (W9 m ρ c (Proc.devRef .tc main_v53)) (W9 m ρ c (Proc.devRef .tc main_v3)) = _
  rw [w9_v50, w9_v53, w9_v3]
  exact (Cert.ReferenceIdeal.Stages.v56_eq _ _ _ _ _ _ _ _).symm

theorem w10_v5 : W10 m ρ c (Proc.devRef .tc main_v5) = val_main_v8 (F := Ideal) A0 :=
  (W10_of_ne m ρ c main_v5 (by decide)).trans (w9_v5 m ρ c)

theorem w10_v7 : W10 m ρ c (Proc.devRef .tc main_v7) = val_main_v10 (F := Ideal) A0 :=
  (W10_of_ne m ρ c main_v7 (by decide)).trans (w9_v7 m ρ c)

theorem w10_v34 : W10 m ρ c (Proc.devRef .tc main_v34) = val_main_v34 (F := Ideal) A0 :=
  (W10_of_ne m ρ c main_v34 (by decide)).trans (w9_v34 m ρ c)

theorem w10_arg6 : W10 m ρ c (Proc.devRef .tc main_arg6) = A6 :=
  (W10_of_ne m ρ c main_arg6 (by decide)).trans (w9_arg6 m ρ c)

theorem w10_arg7 : W10 m ρ c (Proc.devRef .tc main_arg7) = A7 :=
  (W10_of_ne m ρ c main_arg7 (by decide)).trans (w9_arg7 m ρ c)

end Cert.KernelIdeal.ChainB

end
-- ==== Proof.Region3.lean ====
/-
  The layer projection as a pipelined region over twenty row tiles of 10000 rows: whatever the feature array X and the
  weight array W hold when the region is entered, the result array ends holding X · W, entry by entry — tile t's
  block is rows 10000·t … 10000·t + 9999 of the product, and the twenty tiles cover the rows.
-/
import proofs.«130384_j68788196212816_2_alg».proof.Proof.Gen.KernelIdeal.Frame
import proofs.«130384_j68788196212816_2_alg».proof.Proof.Payloads
import proofs.«130384_j68788196212816_2_alg».proof.Proof.Spec

set_option maxRecDepth 16384

noncomputable section

open scoped BigOperators

namespace Cert.KernelIdeal.Reg3

open Cert.KernelIdeal Cert.KernelIdeal.Gen Idealize.ShloMosaic Idealize.ShloMosaic.TcCoe Idealize.ShloMosaic.ValueIdx
open Idealize.ShloMosaic.Pipeline (Dat Cfg Window)
open Cert.Spec

variable (V : (c : Dev nD) → (b : Ref sig .tc) → Buf (Elt Ideal) ((c : Thread nD τ).loc b))

theorem zeros : (![0, 0] : Fin 2 → Nat) = fun _ => 0 := funext fun a => by fin_cases a <;> rfl

/-- The index maps over the grid: the feature and result windows move down the rows with the tile, the weights stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What tile t writes back is tile t's block of the product. -/
theorem flushed_eq (c : Dev nD) (t : Fin cfg3.N) :
    (dat3 V c).flushed 2 t = ((cfg3.win 2).blk t).view.read (Elt Ideal) (matProd (V c main_v54_0) (V c main_v56)) := by
  show (cfg3.win 2).cut (grid3.coords t) ((dat3 V c).after 2 t) = _
  rw [after3_2]
  unfold out3_2
  rw [View.canon_unit_zero zeros]
  simp only [View.ld_unit_zero (S := S10000x64) zeros, View.ld_unit_zero (S := S64x64) zeros]
  obtain ⟨e0, e1, e2, e3, e4, e5⟩ := idx_facts t
  funext y
  obtain ⟨r, j, rfl⟩ : ∃ (r : Fin 10000) (j : Fin 64), y = ix2 r j := ⟨y 0, y 1, eq_ix2 y⟩
  refine (Pay.proj3_apply _ _ r j).trans ?_
  show _ = matProd (V c main_v54_0) (V c main_v56) (((cfg3.win 2).blk t).view.emb (ix2 r j))
  unfold matProd
  refine Finset.sum_congr rfl fun k _ => ?_
  have hx : ((cfg3.win 0).blk t).view.emb (ix2 r k) = ix2 ((((cfg3.win 2).blk t).view.emb (ix2 r j)) 0) k := by
    funext a; apply Fin.ext
    match a with
    | ⟨0, _⟩ => show win3_0.index t (0 : Fin 2) * 10000 + 1 * r.val = win3_2.index t (0 : Fin 2) * 10000 + 1 * r.val; omega
    | ⟨1, _⟩ => show win3_0.index t (1 : Fin 2) * 64 + 1 * k.val = k.val; omega
  have hw : ((cfg3.win 1).blk t).view.emb (ix2 k j) = ix2 k ((((cfg3.win 2).blk t).view.emb (ix2 r j)) 1) := by
    funext a; apply Fin.ext
    match a with
    | ⟨0, _⟩ => show win3_1.index t (0 : Fin 2) * 64 + 1 * k.val = k.val; omega
    | ⟨1, _⟩ => show win3_1.index t (1 : Fin 2) * 64 + 1 * j.val = win3_2.index t (1 : Fin 2) * 64 + 1 * j.val; omega
  show (fun (X : Mat 200000 64) (W : Mat 64 64) =>
      X (((cfg3.win 0).blk t).view.emb (ix2 r k)) * W (((cfg3.win 1).blk t).view.emb (ix2 k j))) (V c main_v54_0) (V c main_v56) = _
  rw [hx, hw]
  try rfl

/-- An index of the result array is in tile t's block iff each coordinate is in the block's range on its axis. -/
theorem mem_blk (t : Fin cfg3.N) (i : S200000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v57).slice (win3_2.rect t)).set ↔ _
  rw [View.set_slice_whole, Rect.mem_set_unit]
  exact Iff.rfl

/-- Row i is in the block of tile ⌊i / 10000⌋. -/
theorem cover (i : S200000x64.Idx) : ∃ t : Fin cfg3.N, (cfg3.win 2).flush t = true ∧ i ∈ ((cfg3.win 2).blk t).view.set := by
  have hi0 : (i 0).val < 200000 := (i 0).isLt
  have hi1 : (i 1).val < 64 := (i 1).isLt
  have hN : (i 0).val / 10000 < cfg3.N := by show _ < grid3.N; rw [N_3]; omega
  obtain ⟨e0, e1, e2, e3, e4, e5⟩ := idx_facts ⟨(i 0).val / 10000, hN⟩
  refine ⟨⟨(i 0).val / 10000, hN⟩, flush3_2 _, ?_⟩
  rw [mem_blk]
  intro a
  match a with
  | ⟨0, _⟩ =>
    show win3_2.index ⟨(i 0).val / 10000, hN⟩ (0 : Fin 2) * 10000 ≤ (i 0).val ∧ (i 0).val < win3_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, hN⟩ (1 : Fin 2) * 64 ≤ (i 1).val ∧ (i 1).val < win3_2.index ⟨(i 0).val / 10000, hN⟩ (1 : Fin 2) * 64 + 64
    rw [e5]; omega

/-- The result array after the region: the product of the two arrays the region found. -/
theorem final (c : Dev nD) : (dat3 V c).arrAt 2 cfg3.N = matProd (V c main_v54_0) (V c main_v56) :=
  (dat3 V c).arrAt_eq_of_cover 2 _ (fun t _ => flushed_eq V c t) cover

end Cert.KernelIdeal.Reg3

end
-- ==== Proof.Region4.lean ====
/-
  The close of a layer as a pipelined region over twenty row tiles of 10000 rows: whatever the aggregated messages S, the
  bias row B and the running sum A hold when the region is entered, the new-feature array ends holding S + B (the bias
  down every row) and the new running sum A + (S + B), entry by entry; the twenty tiles cover the rows of both.
-/
import proofs.«130384_j68788196212816_2_alg».proof.Proof.Gen.KernelIdeal.Frame
import proofs.«130384_j68788196212816_2_alg».proof.Proof.Payloads
import proofs.«130384_j68788196212816_2_alg».proof.Proof.Spec

set_option maxRecDepth 16384

noncomputable section

open scoped BigOperators

namespace Cert.KernelIdeal.Reg4

open Cert.KernelIdeal Cert.KernelIdeal.Gen Idealize.ShloMosaic Idealize.ShloMosaic.TcCoe Idealize.ShloMosaic.ValueIdx
open Idealize.ShloMosaic.Pipeline (Dat Cfg Window)
open Cert.Spec

variable (V : (c : Dev nD) → (b : Ref sig .tc) → Buf (Elt Ideal) ((c : Thread nD τ).loc b))

theorem zeros : (![0, 0] : Fin 2 → Nat) = fun _ => 0 := funext fun a => by fin_cases a <;> rfl

/-- The index maps over the grid: the four full-size windows move down the rows with the tile, the bias row stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- What tile t writes back through window 3 is tile t's block of the new features. -/
theorem flushed3_eq (c : Dev nD) (t : Fin cfg4.N) :
    (dat4 V c).flushed 3 t = ((cfg4.win 3).blk t).view.read (Elt Ideal) (newX (V c main_v70) (V c main_v73)) := by
  show (cfg4.win 3).cut (grid4.coords t) ((dat4 V c).after 3 t) = _
  rw [after4_3]
  unfold out4_3
  rw [View.canon_unit_zero zeros]
  simp only [View.ld_unit_zero (S := S10000x64) zeros, View.ld_unit_zero (S := S1x64) zeros]
  obtain ⟨e0, e1, e2, e3, e4, e5, e6, e7, e8, e9⟩ := idx_facts t
  funext y
  obtain ⟨r, j, rfl⟩ : ∃ (r : Fin 10000) (j : Fin 64), y = ix2 r j := ⟨y 0, y 1, eq_ix2 y⟩
  refine (Pay.close4_x_apply _ _ r j).trans ?_
  have hs : ((cfg4.win 0).blk t).view.emb (ix2 r j) = ((cfg4.win 3).blk t).view.emb (ix2 r j) := by
    funext a; apply Fin.ext
    match a with
    | ⟨0, _⟩ => show win4_0.index t (0 : Fin 2) * 10000 + 1 * r.val = win4_3.index t (0 : Fin 2) * 10000 + 1 * r.val; omega
    | ⟨1, _⟩ => show win4_0.index t (1 : Fin 2) * 64 + 1 * j.val = win4_3.index t (1 : Fin 2) * 64 + 1 * j.val; omega
  have hb : ((cfg4.win 1).blk t).view.emb (ix2 0 j) = ix2 0 ((((cfg4.win 3).blk t).view.emb (ix2 r j)) 1) := by
    funext a; apply Fin.ext
    match a with
    | ⟨0, _⟩ => show win4_1.index t (0 : Fin 2) * 1 + 1 * 0 = 0; omega
    | ⟨1, _⟩ => show win4_1.index t (1 : Fin 2) * 64 + 1 * j.val = win4_3.index t (1 : Fin 2) * 64 + 1 * j.val; omega
  have ha : ((cfg4.win 2).blk t).view.emb (ix2 r j) = ((cfg4.win 3).blk t).view.emb (ix2 r j) := by
    funext a; apply Fin.ext
    match a with
    | ⟨0, _⟩ => show win4_2.index t (0 : Fin 2) * 10000 + 1 * r.val = win4_3.index t (0 : Fin 2) * 10000 + 1 * r.val; omega
    | ⟨1, _⟩ => show win4_2.index t (1 : Fin 2) * 64 + 1 * j.val = win4_3.index t (1 : Fin 2) * 64 + 1 * j.val; omega
  show (fun (S : Mat 200000 64) (B : Mat 1 64) =>
      S (((cfg4.win 0).blk t).view.emb (ix2 r j)) + B (((cfg4.win 1).blk t).view.emb (ix2 0 j))) (V c main_v70) (V c main_v73)
    = newX (V c main_v70) (V c main_v73) (((cfg4.win 3).blk t).view.emb (ix2 r j))
  unfold newX
  rw [hs, hb]
  try rfl

/-- An index of window 3's array is in tile t's block iff each coordinate is in the block's range on its axis. -/
theorem mem_blk3 (t : Fin cfg4.N) (i : S200000x64.Idx) :
    i ∈ ((cfg4.win 3).blk t).view.set ↔ ∀ a : Fin 2, win4_3.index t a * S10000x64.size a ≤ (i a).val ∧ (i a).val < win4_3.index t a * S10000x64.size a + S10000x64.size a := by
  show i ∈ ((View.whole main_v74_0).slice (win4_3.rect t)).set ↔ _
  rw [View.set_slice_whole, Rect.mem_set_unit]
  exact Iff.rfl

/-- Row i is in the block of tile ⌊i / 10000⌋ (window 3). -/
theorem cover3 (i : S200000x64.Idx) : ∃ t : Fin cfg4.N, (cfg4.win 3).flush t = true ∧ i ∈ ((cfg4.win 3).blk t).view.set := by
  have hi0 : (i 0).val < 200000 := (i 0).isLt
  have hi1 : (i 1).val < 64 := (i 1).isLt
  have hN : (i 0).val / 10000 < cfg4.N := by show _ < grid4.N; rw [N_4]; omega
  obtain ⟨e0, e1, e2, e3, e4, e5, e6, e7, e8, e9⟩ := idx_facts ⟨(i 0).val / 10000, hN⟩
  refine ⟨⟨(i 0).val / 10000, hN⟩, flush4_3 _, ?_⟩
  rw [mem_blk3]
  intro a
  match a with
  | ⟨0, _⟩ =>
    show win4_3.index ⟨(i 0).val / 10000, hN⟩ (0 : Fin 2) * 10000 ≤ (i 0).val ∧ (i 0).val < win4_3.index ⟨(i 0).val / 10000, hN⟩ (0 : Fin 2) * 10000 + 10000
    rw [e6]; show (i 0).val / 10000 * 10000 ≤ (i 0).val ∧ (i 0).val < (i 0).val / 10000 * 10000 + 10000; omega
  | ⟨1, _⟩ =>
    show win4_3.index ⟨(i 0).val / 10000, hN⟩ (1 : Fin 2) * 64 ≤ (i 1).val ∧ (i 1).val < win4_3.index ⟨(i 0).val / 10000, hN⟩ (1 : Fin 2) * 64 + 64
    rw [e7]; omega

/-- Window 3's array after the region: the new features of the arrays the region found. -/
theorem final3 (c : Dev nD) : (dat4 V c).arrAt 3 cfg4.N = newX (V c main_v70) (V c main_v73) :=
  (dat4 V c).arrAt_eq_of_cover 3 _ (fun t _ => flushed3_eq V c t) cover3

/-- What tile t writes back through window 4 is tile t's block of the new running sum. -/
theorem flushed4_eq (c : Dev nD) (t : Fin cfg4.N) :
    (dat4 V c).flushed 4 t = ((cfg4.win 4).blk t).view.read (Elt Ideal) (newAcc (V c main_v70) (V c main_v73) (V c main_v54_1)) := by
  show (cfg4.win 4).cut (grid4.coords t) ((dat4 V c).after 4 t) = _
  rw [after4_4]
  unfold out4_4
  rw [View.canon_unit_zero zeros]
  simp only [View.ld_unit_zero (S := S10000x64) zeros, View.ld_unit_zero (S := S1x64) zeros]
  obtain ⟨e0, e1, e2, e3, e4, e5, e6, e7, e8, e9⟩ := idx_facts t
  funext y
  obtain ⟨r, j, rfl⟩ : ∃ (r : Fin 10000) (j : Fin 64), y = ix2 r j := ⟨y 0, y 1, eq_ix2 y⟩
  refine (Pay.close4_acc_apply _ _ _ r j).trans ?_
  have hs : ((cfg4.win 0).blk t).view.emb (ix2 r j) = ((cfg4.win 4).blk t).view.emb (ix2 r j) := by
    funext a; apply Fin.ext
    match a with
    | ⟨0, _⟩ => show win4_0.index t (0 : Fin 2) * 10000 + 1 * r.val = win4_4.index t (0 : Fin 2) * 10000 + 1 * r.val; omega
    | ⟨1, _⟩ => show win4_0.index t (1 : Fin 2) * 64 + 1 * j.val = win4_4.index t (1 : Fin 2) * 64 + 1 * j.val; omega
  have hb : ((cfg4.win 1).blk t).view.emb (ix2 0 j) = ix2 0 ((((cfg4.win 4).blk t).view.emb (ix2 r j)) 1) := by
    funext a; apply Fin.ext
    match a with
    | ⟨0, _⟩ => show win4_1.index t (0 : Fin 2) * 1 + 1 * 0 = 0; omega
    | ⟨1, _⟩ => show win4_1.index t (1 : Fin 2) * 64 + 1 * j.val = win4_4.index t (1 : Fin 2) * 64 + 1 * j.val; omega
  have ha : ((cfg4.win 2).blk t).view.emb (ix2 r j) = ((cfg4.win 4).blk t).view.emb (ix2 r j) := by
    funext a; apply Fin.ext
    match a with
    | ⟨0, _⟩ => show win4_2.index t (0 : Fin 2) * 10000 + 1 * r.val = win4_4.index t (0 : Fin 2) * 10000 + 1 * r.val; omega
    | ⟨1, _⟩ => show win4_2.index t (1 : Fin 2) * 64 + 1 * j.val = win4_4.index t (1 : Fin 2) * 64 + 1 * j.val; omega
  show (fun (S : Mat 200000 64) (B : Mat 1 64) (A : Mat 200000 64) =>
      A (((cfg4.win 2).blk t).view.emb (ix2 r j)) + (S (((cfg4.win 0).blk t).view.emb (ix2 r j)) + B (((cfg4.win 1).blk t).view.emb (ix2 0 j))))
      (V c main_v70) (V c main_v73) (V c main_v54_1)
    = newAcc (V c main_v70) (V c main_v73) (V c main_v54_1) (((cfg4.win 4).blk t).view.emb (ix2 r j))
  unfold newAcc
  rw [hs, hb, ha]
  try rfl

/-- An index of window 4's array is in tile t's block iff each coordinate is in the block's range on its axis. -/
theorem mem_blk4 (t : Fin cfg4.N) (i : S200000x64.Idx) :
    i ∈ ((cfg4.win 4).blk t).view.set ↔ ∀ a : Fin 2, win4_4.index t a * S10000x64.size a ≤ (i a).val ∧ (i a).val < win4_4.index t a * S10000x64.size a + S10000x64.size a := by
  show i ∈ ((View.whole main_v74_1).slice (win4_4.rect t)).set ↔ _
  rw [View.set_slice_whole, Rect.mem_set_unit]
  exact Iff.rfl

/-- Row i is in the block of tile ⌊i / 10000⌋ (window 4). -/
theorem cover4 (i : S200000x64.Idx) : ∃ t : Fin cfg4.N, (cfg4.win 4).flush t = true ∧ i ∈ ((cfg4.win 4).blk t).view.set := by
  have hi0 : (i 0).val < 200000 := (i 0).isLt
  have hi1 : (i 1).val < 64 := (i 1).isLt
  have hN : (i 0).val / 10000 < cfg4.N := by show _ < grid4.N; rw [N_4]; omega
  obtain ⟨e0, e1, e2, e3, e4, e5, e6, e7, e8, e9⟩ := idx_facts ⟨(i 0).val / 10000, hN⟩
  refine ⟨⟨(i 0).val / 10000, hN⟩, flush4_4 _, ?_⟩
  rw [mem_blk4]
  intro a
  match a with
  | ⟨0, _⟩ =>
    show win4_4.index ⟨(i 0).val / 10000, hN⟩ (0 : Fin 2) * 10000 ≤ (i 0).val ∧ (i 0).val < win4_4.index ⟨(i 0).val / 10000, hN⟩ (0 : Fin 2) * 10000 + 10000
    rw [e8]; show (i 0).val / 10000 * 10000 ≤ (i 0).val ∧ (i 0).val < (i 0).val / 10000 * 10000 + 10000; omega
  | ⟨1, _⟩ =>
    show win4_4.index ⟨(i 0).val / 10000, hN⟩ (1 : Fin 2) * 64 ≤ (i 1).val ∧ (i 1).val < win4_4.index ⟨(i 0).val / 10000, hN⟩ (1 : Fin 2) * 64 + 64
    rw [e9]; omega

/-- Window 4's array after the region: the new running sum of the arrays the region found. -/
theorem final4 (c : Dev nD) : (dat4 V c).arrAt 4 cfg4.N = newAcc (V c main_v70) (V c main_v73) (V c main_v54_1) :=
  (dat4 V c).arrAt_eq_of_cover 4 _ (fun t _ => flushed4_eq V c t) cover4

end Cert.KernelIdeal.Reg4

end
-- ==== Proof.ChainC.lean ====
/-
  The second layer read back: the weight slice, the projection region, the gather / scale / scatter lines and the
  bias row, and the layer's close region.
-/
import proofs.«130384_j68788196212816_2_alg».proof.Proof.Gen.KernelIdeal.Frame
import proofs.«130384_j68788196212816_2_alg».proof.Proof.ChainB
import proofs.«130384_j68788196212816_2_alg».proof.Proof.Region3
import proofs.«130384_j68788196212816_2_alg».proof.Proof.Region4
import proofs.«130384_j68788196212816_2_alg».proof.Proof.RefStages
import proofs.«130384_j68788196212816_2_alg».proof.Proof.LibTypedRefs

set_option maxRecDepth 16384
set_option quotPrecheck false

noncomputable section

namespace Cert.KernelIdeal.ChainC

open Cert.KernelIdeal Cert.KernelIdeal.Gen Idealize.ShloMosaic Idealize.ShloMosaic.TcCoe Idealize.SL.Sem Idealize.ShloMosaic.StableHlo
open Cert.ReferenceIdeal.Read (val_main_v0 val_main_v3 val_main_v5 val_main_v6 val_main_v8 val_main_v10 val_main_v14 val_main_v16 val_main_v17 val_main_v18 val_main_v19 val_main_v34 val_main_v36 val_main_v37 val_main_v50 val_main_v53 val_main_v55 val_main_v56 val_main_v58 val_main_v59 val_main_v72 val_main_v75 val_main_v77 val_main_v78 val_main_v80 val_main_v81 val_main_v94 val_main_v97 val_main_v99 val_main_v100 val_main_v102 val_main_v103 val_main_v104)
open Cert.Spec
open Cert.KernelIdeal.ChainB
variable (m : (ℓ : Loc nD τ sig) → Buf (Elt Ideal) ℓ) (ρ : Dev nD → PrngReg) (c : Dev nD)

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)

set_option maxHeartbeats 4000000 in
theorem w11_v56 : W11 m ρ c (Proc.devRef .tc main_v56) = val_main_v58 (F := Ideal) A6 := by
  have h0 := w10_arg6 m ρ c
  show StableHlo.after hostOps3 (W10 m ρ c) (Proc.devRef .tc main_v56) = _
  generalize W10 m ρ c = U at h0 ⊢
  after_results_simp
  rw [h0]
  rfl

set_option maxHeartbeats 4000000 in
theorem w11_v54_0 : W11 m ρ c (Proc.devRef .tc main_v54_0) = val_main_v55 (F := Ideal) A0 A1 A2 A3 A4 A5 A6 A7 := by
  have h0 := w10_v54_0 m ρ c
  show StableHlo.after hostOps3 (W10 m ρ c) (Proc.devRef .tc main_v54_0) = _
  generalize W10 m ρ c = U at h0 ⊢
  after_results_simp
  exact h0

set_option maxHeartbeats 4000000 in
theorem w11_v54_1 : W11 m ρ c (Proc.devRef .tc main_v54_1) = val_main_v56 (F := Ideal) A0 A1 A2 A3 A4 A5 A6 A7 := by
  have h0 := w10_v54_1 m ρ c
  show StableHlo.after hostOps3 (W10 m ρ c) (Proc.devRef .tc main_v54_1) = _
  generalize W10 m ρ c = U at h0 ⊢
  after_results_simp
  exact h0

set_option maxHeartbeats 4000000 in
theorem w11_v5 : W11 m ρ c (Proc.devRef .tc main_v5) = val_main_v8 (F := Ideal) A0 := by
  have h0 := w10_v5 m ρ c
  show StableHlo.after hostOps3 (W10 m ρ c) (Proc.devRef .tc main_v5) = _
  generalize W10 m ρ c = U at h0 ⊢
  after_results_simp
  exact h0

set_option maxHeartbeats 4000000 in
theorem w11_v7 : W11 m ρ c (Proc.devRef .tc main_v7) = val_main_v10 (F := Ideal) A0 := by
  have h0 := w10_v7 m ρ c
  show StableHlo.after hostOps3 (W10 m ρ c) (Proc.devRef .tc main_v7) = _
  generalize W10 m ρ c = U at h0 ⊢
  after_results_simp
  exact h0

set_option maxHeartbeats 4000000 in
theorem w11_v34 : W11 m ρ c (Proc.devRef .tc main_v34) = val_main_v34 (F := Ideal) A0 := by
  have h0 := w10_v34 m ρ c
  show StableHlo.after hostOps3 (W10 m ρ c) (Proc.devRef .tc main_v34) = _
  generalize W10 m ρ c = U at h0 ⊢
  after_results_simp
  exact h0

set_option maxHeartbeats 4000000 in
theorem w11_arg6 : W11 m ρ c (Proc.devRef .tc main_arg6) = A6 := by
  have h0 := w10_arg6 m ρ c
  show StableHlo.after hostOps3 (W10 m ρ c) (Proc.devRef .tc main_arg6) = _
  generalize W10 m ρ c = U at h0 ⊢
  after_results_simp
  exact h0

set_option maxHeartbeats 4000000 in
theorem w11_arg7 : W11 m ρ c (Proc.devRef .tc main_arg7) = A7 := by
  have h0 := w10_arg7 m ρ c
  show StableHlo.after hostOps3 (W10 m ρ c) (Proc.devRef .tc main_arg7) = _
  generalize W10 m ρ c = U at h0 ⊢
  after_results_simp
  exact h0

/-- Region 3's result is the reference's layer projection. -/
theorem w12_v57 : W12 m ρ c (Proc.devRef .tc main_v57) = val_main_v59 (F := Ideal) A0 A1 A2 A3 A4 A5 A6 A7 := by
  show W12 m ρ c (Proc.devRef .tc (Pipeline.arrRef spec3 2)) = _
  rw [W12_arr, Reg3.final (V11 m ρ) c]
  show matProd (W11 m ρ c (Proc.devRef .tc main_v54_0)) (W11 m ρ c (Proc.devRef .tc main_v56)) = _
  rw [w11_v54_0, w11_v56]
  exact (Cert.ReferenceIdeal.Stages.v59_eq _ _ _ _ _ _ _ _).symm

theorem w12_v54_1 : W12 m ρ c (Proc.devRef .tc main_v54_1) = val_main_v56 (F := Ideal) A0 A1 A2 A3 A4 A5 A6 A7 :=
  (W12_of_ne m ρ c main_v54_1 (by decide)).trans (w11_v54_1 m ρ c)

theorem w12_v5 : W12 m ρ c (Proc.devRef .tc main_v5) = val_main_v8 (F := Ideal) A0 :=
  (W12_of_ne m ρ c main_v5 (by decide)).trans (w11_v5 m ρ c)

theorem w12_v7 : W12 m ρ c (Proc.devRef .tc main_v7) = val_main_v10 (F := Ideal) A0 :=
  (W12_of_ne m ρ c main_v7 (by decide)).trans (w11_v7 m ρ c)

theorem w12_v34 : W12 m ρ c (Proc.devRef .tc main_v34) = val_main_v34 (F := Ideal) A0 :=
  (W12_of_ne m ρ c main_v34 (by decide)).trans (w11_v34 m ρ c)

theorem w12_arg6 : W12 m ρ c (Proc.devRef .tc main_arg6) = A6 :=
  (W12_of_ne m ρ c main_arg6 (by decide)).trans (w11_arg6 m ρ c)

theorem w12_arg7 : W12 m ρ c (Proc.devRef .tc main_arg7) = A7 :=
  (W12_of_ne m ρ c main_arg7 (by decide)).trans (w11_arg7 m ρ c)

set_option maxHeartbeats 4000000 in
theorem w13_v70 : W13 m ρ c (Proc.devRef .tc main_v70) = val_main_v72 (F := Ideal) A0 A1 A2 A3 A4 A5 A6 A7 := by
  have h0 := w12_v34 m ρ c
  have h1 := w12_v5 m ρ c
  have h2 := w12_v7 m ρ c
  have h3 := w12_v57 m ρ c
  show StableHlo.after hostOps4 (W12 m ρ c) (Proc.devRef .tc main_v70) = _
  generalize W12 m ρ c = U at h0 h1 h2 h3 ⊢
  after_results_simp
  rw [h0, h1, h2, h3]
  rfl

set_option maxHeartbeats 4000000 in
theorem w13_v73 : W13 m ρ c (Proc.devRef .tc main_v73) = val_main_v75 (F := Ideal) A7 := by
  have h0 := w12_arg7 m ρ c
  show StableHlo.after hostOps4 (W12 m ρ c) (Proc.devRef .tc main_v73) = _
  generalize W12 m ρ c = U at h0 ⊢
  after_results_simp
  rw [h0]
  exact row_of_vec _ _ _

set_option maxHeartbeats 4000000 in
theorem w13_v54_1 : W13 m ρ c (Proc.devRef .tc main_v54_1) = val_main_v56 (F := Ideal) A0 A1 A2 A3 A4 A5 A6 A7 := by
  have h0 := w12_v54_1 m ρ c
  show StableHlo.after hostOps4 (W12 m ρ c) (Proc.devRef .tc main_v54_1) = _
  generalize W12 m ρ c = U at h0 ⊢
  after_results_simp
  exact h0

set_option maxHeartbeats 4000000 in
theorem w13_v5 : W13 m ρ c (Proc.devRef .tc main_v5) = val_main_v8 (F := Ideal) A0 := by
  have h0 := w12_v5 m ρ c
  show StableHlo.after hostOps4 (W12 m ρ c) (Proc.devRef .tc main_v5) = _
  generalize W12 m ρ c = U at h0 ⊢
  after_results_simp
  exact h0

set_option maxHeartbeats 4000000 in
theorem w13_v7 : W13 m ρ c (Proc.devRef .tc main_v7) = val_main_v10 (F := Ideal) A0 := by
  have h0 := w12_v7 m ρ c
  show StableHlo.after hostOps4 (W12 m ρ c) (Proc.devRef .tc main_v7) = _
  generalize W12 m ρ c = U at h0 ⊢
  after_results_simp
  exact h0

set_option maxHeartbeats 4000000 in
theorem w13_v34 : W13 m ρ c (Proc.devRef .tc main_v34) = val_main_v34 (F := Ideal) A0 := by
  have h0 := w12_v34 m ρ c
  show StableHlo.after hostOps4 (W12 m ρ c) (Proc.devRef .tc main_v34) = _
  generalize W12 m ρ c = U at h0 ⊢
  after_results_simp
  exact h0

set_option maxHeartbeats 4000000 in
theorem w13_arg6 : W13 m ρ c (Proc.devRef .tc main_arg6) = A6 := by
  have h0 := w12_arg6 m ρ c
  show StableHlo.after hostOps4 (W12 m ρ c) (Proc.devRef .tc main_arg6) = _
  generalize W12 m ρ c = U at h0 ⊢
  after_results_simp
  exact h0

set_option maxHeartbeats 4000000 in
theorem w13_arg7 : W13 m ρ c (Proc.devRef .tc main_arg7) = A7 := by
  have h0 := w12_arg7 m ρ c
  show StableHlo.after hostOps4 (W12 m ρ c) (Proc.devRef .tc main_arg7) = _
  generalize W12 m ρ c = U at h0 ⊢
  after_results_simp
  exact h0

/-- Region 4's new features are the reference's. -/
theorem w14_v74_0 : W14 m ρ c (Proc.devRef .tc main_v74_0) = val_main_v77 (F := Ideal) A0 A1 A2 A3 A4 A5 A6 A7 := by
  show W14 m ρ c (Proc.devRef .tc (Pipeline.arrRef spec4 3)) = _
  rw [W14_arr, Reg4.final3 (V13 m ρ) c]
  show newX (W13 m ρ c (Proc.devRef .tc main_v70)) (W13 m ρ c (Proc.devRef .tc main_v73)) = _
  rw [w13_v70, w13_v73]
  exact (Cert.ReferenceIdeal.Stages.v77_eq _ _ _ _ _ _ _ _).symm

/-- Region 4's running sum is the reference's. -/
theorem w14_v74_1 : W14 m ρ c (Proc.devRef .tc main_v74_1) = val_main_v78 (F := Ideal) A0 A1 A2 A3 A4 A5 A6 A7 := by
  show W14 m ρ c (Proc.devRef .tc (Pipeline.arrRef spec4 4)) = _
  rw [W14_arr, Reg4.final4 (V13 m ρ) c]
  show newAcc (W13 m ρ c (Proc.devRef .tc main_v70)) (W13 m ρ c (Proc.devRef .tc main_v73)) (W13 m ρ c (Proc.devRef .tc main_v54_1)) = _
  rw [w13_v70, w13_v73, w13_v54_1]
  exact (Cert.ReferenceIdeal.Stages.v78_eq _ _ _ _ _ _ _ _).symm

theorem w14_v5 : W14 m ρ c (Proc.devRef .tc main_v5) = val_main_v8 (F := Ideal) A0 :=
  (W14_of_ne m ρ c main_v5 (by decide)).trans (w13_v5 m ρ c)

theorem w14_v7 : W14 m ρ c (Proc.devRef .tc main_v7) = val_main_v10 (F := Ideal) A0 :=
  (W14_of_ne m ρ c main_v7 (by decide)).trans (w13_v7 m ρ c)

theorem w14_v34 : W14 m ρ c (Proc.devRef .tc main_v34) = val_main_v34 (F := Ideal) A0 :=
  (W14_of_ne m ρ c main_v34 (by decide)).trans (w13_v34 m ρ c)

theorem w14_arg6 : W14 m ρ c (Proc.devRef .tc main_arg6) = A6 :=
  (W14_of_ne m ρ c main_arg6 (by decide)).trans (w13_arg6 m ρ c)

theorem w14_arg7 : W14 m ρ c (Proc.devRef .tc main_arg7) = A7 :=
  (W14_of_ne m ρ c main_arg7 (by decide)).trans (w13_arg7 m ρ c)

end Cert.KernelIdeal.ChainC

end
-- ==== Proof.Region5.lean ====
/-
  The layer projection as a pipelined region over twenty row tiles of 10000 rows: whatever the feature array X and the
  weight array W hold when the region is entered, the result array ends holding X · W, entry by entry — tile t's
  block is rows 10000·t … 10000·t + 9999 of the product, and the twenty tiles cover the rows.
-/
import proofs.«130384_j68788196212816_2_alg».proof.Proof.Gen.KernelIdeal.Frame
import proofs.«130384_j68788196212816_2_alg».proof.Proof.Payloads
import proofs.«130384_j68788196212816_2_alg».proof.Proof.Spec

set_option maxRecDepth 16384

noncomputable section

open scoped BigOperators

namespace Cert.KernelIdeal.Reg5

open Cert.KernelIdeal Cert.KernelIdeal.Gen Idealize.ShloMosaic Idealize.ShloMosaic.TcCoe Idealize.ShloMosaic.ValueIdx
open Idealize.ShloMosaic.Pipeline (Dat Cfg Window)
open Cert.Spec

variable (V : (c : Dev nD) → (b : Ref sig .tc) → Buf (Elt Ideal) ((c : Thread nD τ).loc b))

theorem zeros : (![0, 0] : Fin 2 → Nat) = fun _ => 0 := funext fun a => by fin_cases a <;> rfl

/-- The index maps over the grid: the feature and result windows move down the rows with the tile, the weights stay. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What tile t writes back is tile t's block of the product. -/
theorem flushed_eq (c : Dev nD) (t : Fin cfg5.N) :
    (dat5 V c).flushed 2 t = ((cfg5.win 2).blk t).view.read (Elt Ideal) (matProd (V c main_v74_0) (V c main_v76)) := by
  show (cfg5.win 2).cut (grid5.coords t) ((dat5 V c).after 2 t) = _
  rw [after5_2]
  unfold out5_2
  rw [View.canon_unit_zero zeros]
  simp only [View.ld_unit_zero (S := S10000x64) zeros, View.ld_unit_zero (S := S64x64) zeros]
  obtain ⟨e0, e1, e2, e3, e4, e5⟩ := idx_facts t
  funext y
  obtain ⟨r, j, rfl⟩ : ∃ (r : Fin 10000) (j : Fin 64), y = ix2 r j := ⟨y 0, y 1, eq_ix2 y⟩
  refine (Pay.proj5_apply _ _ r j).trans ?_
  show _ = matProd (V c main_v74_0) (V c main_v76) (((cfg5.win 2).blk t).view.emb (ix2 r j))
  unfold matProd
  refine Finset.sum_congr rfl fun k _ => ?_
  have hx : ((cfg5.win 0).blk t).view.emb (ix2 r k) = ix2 ((((cfg5.win 2).blk t).view.emb (ix2 r j)) 0) k := by
    funext a; apply Fin.ext
    match a with
    | ⟨0, _⟩ => show win5_0.index t (0 : Fin 2) * 10000 + 1 * r.val = win5_2.index t (0 : Fin 2) * 10000 + 1 * r.val; omega
    | ⟨1, _⟩ => show win5_0.index t (1 : Fin 2) * 64 + 1 * k.val = k.val; omega
  have hw : ((cfg5.win 1).blk t).view.emb (ix2 k j) = ix2 k ((((cfg5.win 2).blk t).view.emb (ix2 r j)) 1) := by
    funext a; apply Fin.ext
    match a with
    | ⟨0, _⟩ => show win5_1.index t (0 : Fin 2) * 64 + 1 * k.val = k.val; omega
    | ⟨1, _⟩ => show win5_1.index t (1 : Fin 2) * 64 + 1 * j.val = win5_2.index t (1 : Fin 2) * 64 + 1 * j.val; omega
  show (fun (X : Mat 200000 64) (W : Mat 64 64) =>
      X (((cfg5.win 0).blk t).view.emb (ix2 r k)) * W (((cfg5.win 1).blk t).view.emb (ix2 k j))) (V c main_v74_0) (V c main_v76) = _
  rw [hx, hw]
  try rfl

/-- An index of the result array is in tile t's block iff each coordinate is in the block's range on its axis. -/
theorem mem_blk (t : Fin cfg5.N) (i : S200000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v77).slice (win5_2.rect t)).set ↔ _
  rw [View.set_slice_whole, Rect.mem_set_unit]
  exact Iff.rfl

/-- Row i is in the block of tile ⌊i / 10000⌋. -/
theorem cover (i : S200000x64.Idx) : ∃ t : Fin cfg5.N, (cfg5.win 2).flush t = true ∧ i ∈ ((cfg5.win 2).blk t).view.set := by
  have hi0 : (i 0).val < 200000 := (i 0).isLt
  have hi1 : (i 1).val < 64 := (i 1).isLt
  have hN : (i 0).val / 10000 < cfg5.N := by show _ < grid5.N; rw [N_5]; omega
  obtain ⟨e0, e1, e2, e3, e4, e5⟩ := idx_facts ⟨(i 0).val / 10000, hN⟩
  refine ⟨⟨(i 0).val / 10000, hN⟩, flush5_2 _, ?_⟩
  rw [mem_blk]
  intro a
  match a with
  | ⟨0, _⟩ =>
    show win5_2.index ⟨(i 0).val / 10000, hN⟩ (0 : Fin 2) * 10000 ≤ (i 0).val ∧ (i 0).val < win5_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win5_2.index ⟨(i 0).val / 10000, hN⟩ (1 : Fin 2) * 64 ≤ (i 1).val ∧ (i 1).val < win5_2.index ⟨(i 0).val / 10000, hN⟩ (1 : Fin 2) * 64 + 64
    rw [e5]; omega

/-- The result array after the region: the product of the two arrays the region found. -/
theorem final (c : Dev nD) : (dat5 V c).arrAt 2 cfg5.N = matProd (V c main_v74_0) (V c main_v76) :=
  (dat5 V c).arrAt_eq_of_cover 2 _ (fun t _ => flushed_eq V c t) cover

end Cert.KernelIdeal.Reg5

end
-- ==== Proof.Region6.lean ====
/-
  The close of a layer as a pipelined region over twenty row tiles of 10000 rows: whatever the aggregated messages S, the
  bias row B and the running sum A hold when the region is entered, the new-feature array ends holding S + B (the bias
  down every row) and the new running sum A + (S + B), entry by entry; the twenty tiles cover the rows of both.
-/
import proofs.«130384_j68788196212816_2_alg».proof.Proof.Gen.KernelIdeal.Frame
import proofs.«130384_j68788196212816_2_alg».proof.Proof.Payloads
import proofs.«130384_j68788196212816_2_alg».proof.Proof.Spec

set_option maxRecDepth 16384

noncomputable section

open scoped BigOperators

namespace Cert.KernelIdeal.Reg6

open Cert.KernelIdeal Cert.KernelIdeal.Gen Idealize.ShloMosaic Idealize.ShloMosaic.TcCoe Idealize.ShloMosaic.ValueIdx
open Idealize.ShloMosaic.Pipeline (Dat Cfg Window)
open Cert.Spec

variable (V : (c : Dev nD) → (b : Ref sig .tc) → Buf (Elt Ideal) ((c : Thread nD τ).loc b))

theorem zeros : (![0, 0] : Fin 2 → Nat) = fun _ => 0 := funext fun a => by fin_cases a <;> rfl

/-- The index maps over the grid: the four full-size windows move down the rows with the tile, the bias row stays. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- What tile t writes back through window 3 is tile t's block of the new features. -/
theorem flushed3_eq (c : Dev nD) (t : Fin cfg6.N) :
    (dat6 V c).flushed 3 t = ((cfg6.win 3).blk t).view.read (Elt Ideal) (newX (V c main_v90) (V c main_v93)) := by
  show (cfg6.win 3).cut (grid6.coords t) ((dat6 V c).after 3 t) = _
  rw [after6_3]
  unfold out6_3
  rw [View.canon_unit_zero zeros]
  simp only [View.ld_unit_zero (S := S10000x64) zeros, View.ld_unit_zero (S := S1x64) zeros]
  obtain ⟨e0, e1, e2, e3, e4, e5, e6, e7, e8, e9⟩ := idx_facts t
  funext y
  obtain ⟨r, j, rfl⟩ : ∃ (r : Fin 10000) (j : Fin 64), y = ix2 r j := ⟨y 0, y 1, eq_ix2 y⟩
  refine (Pay.close6_x_apply _ _ r j).trans ?_
  have hs : ((cfg6.win 0).blk t).view.emb (ix2 r j) = ((cfg6.win 3).blk t).view.emb (ix2 r j) := by
    funext a; apply Fin.ext
    match a with
    | ⟨0, _⟩ => show win6_0.index t (0 : Fin 2) * 10000 + 1 * r.val = win6_3.index t (0 : Fin 2) * 10000 + 1 * r.val; omega
    | ⟨1, _⟩ => show win6_0.index t (1 : Fin 2) * 64 + 1 * j.val = win6_3.index t (1 : Fin 2) * 64 + 1 * j.val; omega
  have hb : ((cfg6.win 1).blk t).view.emb (ix2 0 j) = ix2 0 ((((cfg6.win 3).blk t).view.emb (ix2 r j)) 1) := by
    funext a; apply Fin.ext
    match a with
    | ⟨0, _⟩ => show win6_1.index t (0 : Fin 2) * 1 + 1 * 0 = 0; omega
    | ⟨1, _⟩ => show win6_1.index t (1 : Fin 2) * 64 + 1 * j.val = win6_3.index t (1 : Fin 2) * 64 + 1 * j.val; omega
  have ha : ((cfg6.win 2).blk t).view.emb (ix2 r j) = ((cfg6.win 3).blk t).view.emb (ix2 r j) := by
    funext a; apply Fin.ext
    match a with
    | ⟨0, _⟩ => show win6_2.index t (0 : Fin 2) * 10000 + 1 * r.val = win6_3.index t (0 : Fin 2) * 10000 + 1 * r.val; omega
    | ⟨1, _⟩ => show win6_2.index t (1 : Fin 2) * 64 + 1 * j.val = win6_3.index t (1 : Fin 2) * 64 + 1 * j.val; omega
  show (fun (S : Mat 200000 64) (B : Mat 1 64) =>
      S (((cfg6.win 0).blk t).view.emb (ix2 r j)) + B (((cfg6.win 1).blk t).view.emb (ix2 0 j))) (V c main_v90) (V c main_v93)
    = newX (V c main_v90) (V c main_v93) (((cfg6.win 3).blk t).view.emb (ix2 r j))
  unfold newX
  rw [hs, hb]
  try rfl

/-- An index of window 3's array is in tile t's block iff each coordinate is in the block's range on its axis. -/
theorem mem_blk3 (t : Fin cfg6.N) (i : S200000x64.Idx) :
    i ∈ ((cfg6.win 3).blk t).view.set ↔ ∀ a : Fin 2, win6_3.index t a * S10000x64.size a ≤ (i a).val ∧ (i a).val < win6_3.index t a * S10000x64.size a + S10000x64.size a := by
  show i ∈ ((View.whole main_v94_0).slice (win6_3.rect t)).set ↔ _
  rw [View.set_slice_whole, Rect.mem_set_unit]
  exact Iff.rfl

/-- Row i is in the block of tile ⌊i / 10000⌋ (window 3). -/
theorem cover3 (i : S200000x64.Idx) : ∃ t : Fin cfg6.N, (cfg6.win 3).flush t = true ∧ i ∈ ((cfg6.win 3).blk t).view.set := by
  have hi0 : (i 0).val < 200000 := (i 0).isLt
  have hi1 : (i 1).val < 64 := (i 1).isLt
  have hN : (i 0).val / 10000 < cfg6.N := by show _ < grid6.N; rw [N_6]; omega
  obtain ⟨e0, e1, e2, e3, e4, e5, e6, e7, e8, e9⟩ := idx_facts ⟨(i 0).val / 10000, hN⟩
  refine ⟨⟨(i 0).val / 10000, hN⟩, flush6_3 _, ?_⟩
  rw [mem_blk3]
  intro a
  match a with
  | ⟨0, _⟩ =>
    show win6_3.index ⟨(i 0).val / 10000, hN⟩ (0 : Fin 2) * 10000 ≤ (i 0).val ∧ (i 0).val < win6_3.index ⟨(i 0).val / 10000, hN⟩ (0 : Fin 2) * 10000 + 10000
    rw [e6]; show (i 0).val / 10000 * 10000 ≤ (i 0).val ∧ (i 0).val < (i 0).val / 10000 * 10000 + 10000; omega
  | ⟨1, _⟩ =>
    show win6_3.index ⟨(i 0).val / 10000, hN⟩ (1 : Fin 2) * 64 ≤ (i 1).val ∧ (i 1).val < win6_3.index ⟨(i 0).val / 10000, hN⟩ (1 : Fin 2) * 64 + 64
    rw [e7]; omega

/-- Window 3's array after the region: the new features of the arrays the region found. -/
theorem final3 (c : Dev nD) : (dat6 V c).arrAt 3 cfg6.N = newX (V c main_v90) (V c main_v93) :=
  (dat6 V c).arrAt_eq_of_cover 3 _ (fun t _ => flushed3_eq V c t) cover3

/-- What tile t writes back through window 4 is tile t's block of the new running sum. -/
theorem flushed4_eq (c : Dev nD) (t : Fin cfg6.N) :
    (dat6 V c).flushed 4 t = ((cfg6.win 4).blk t).view.read (Elt Ideal) (newAcc (V c main_v90) (V c main_v93) (V c main_v74_1)) := by
  show (cfg6.win 4).cut (grid6.coords t) ((dat6 V c).after 4 t) = _
  rw [after6_4]
  unfold out6_4
  rw [View.canon_unit_zero zeros]
  simp only [View.ld_unit_zero (S := S10000x64) zeros, View.ld_unit_zero (S := S1x64) zeros]
  obtain ⟨e0, e1, e2, e3, e4, e5, e6, e7, e8, e9⟩ := idx_facts t
  funext y
  obtain ⟨r, j, rfl⟩ : ∃ (r : Fin 10000) (j : Fin 64), y = ix2 r j := ⟨y 0, y 1, eq_ix2 y⟩
  refine (Pay.close6_acc_apply _ _ _ r j).trans ?_
  have hs : ((cfg6.win 0).blk t).view.emb (ix2 r j) = ((cfg6.win 4).blk t).view.emb (ix2 r j) := by
    funext a; apply Fin.ext
    match a with
    | ⟨0, _⟩ => show win6_0.index t (0 : Fin 2) * 10000 + 1 * r.val = win6_4.index t (0 : Fin 2) * 10000 + 1 * r.val; omega
    | ⟨1, _⟩ => show win6_0.index t (1 : Fin 2) * 64 + 1 * j.val = win6_4.index t (1 : Fin 2) * 64 + 1 * j.val; omega
  have hb : ((cfg6.win 1).blk t).view.emb (ix2 0 j) = ix2 0 ((((cfg6.win 4).blk t).view.emb (ix2 r j)) 1) := by
    funext a; apply Fin.ext
    match a with
    | ⟨0, _⟩ => show win6_1.index t (0 : Fin 2) * 1 + 1 * 0 = 0; omega
    | ⟨1, _⟩ => show win6_1.index t (1 : Fin 2) * 64 + 1 * j.val = win6_4.index t (1 : Fin 2) * 64 + 1 * j.val; omega
  have ha : ((cfg6.win 2).blk t).view.emb (ix2 r j) = ((cfg6.win 4).blk t).view.emb (ix2 r j) := by
    funext a; apply Fin.ext
    match a with
    | ⟨0, _⟩ => show win6_2.index t (0 : Fin 2) * 10000 + 1 * r.val = win6_4.index t (0 : Fin 2) * 10000 + 1 * r.val; omega
    | ⟨1, _⟩ => show win6_2.index t (1 : Fin 2) * 64 + 1 * j.val = win6_4.index t (1 : Fin 2) * 64 + 1 * j.val; omega
  show (fun (S : Mat 200000 64) (B : Mat 1 64) (A : Mat 200000 64) =>
      A (((cfg6.win 2).blk t).view.emb (ix2 r j)) + (S (((cfg6.win 0).blk t).view.emb (ix2 r j)) + B (((cfg6.win 1).blk t).view.emb (ix2 0 j))))
      (V c main_v90) (V c main_v93) (V c main_v74_1)
    = newAcc (V c main_v90) (V c main_v93) (V c main_v74_1) (((cfg6.win 4).blk t).view.emb (ix2 r j))
  unfold newAcc
  rw [hs, hb, ha]
  try rfl

/-- An index of window 4's array is in tile t's block iff each coordinate is in the block's range on its axis. -/
theorem mem_blk4 (t : Fin cfg6.N) (i : S200000x64.Idx) :
    i ∈ ((cfg6.win 4).blk t).view.set ↔ ∀ a : Fin 2, win6_4.index t a * S10000x64.size a ≤ (i a).val ∧ (i a).val < win6_4.index t a * S10000x64.size a + S10000x64.size a := by
  show i ∈ ((View.whole main_v94_1).slice (win6_4.rect t)).set ↔ _
  rw [View.set_slice_whole, Rect.mem_set_unit]
  exact Iff.rfl

/-- Row i is in the block of tile ⌊i / 10000⌋ (window 4). -/
theorem cover4 (i : S200000x64.Idx) : ∃ t : Fin cfg6.N, (cfg6.win 4).flush t = true ∧ i ∈ ((cfg6.win 4).blk t).view.set := by
  have hi0 : (i 0).val < 200000 := (i 0).isLt
  have hi1 : (i 1).val < 64 := (i 1).isLt
  have hN : (i 0).val / 10000 < cfg6.N := by show _ < grid6.N; rw [N_6]; omega
  obtain ⟨e0, e1, e2, e3, e4, e5, e6, e7, e8, e9⟩ := idx_facts ⟨(i 0).val / 10000, hN⟩
  refine ⟨⟨(i 0).val / 10000, hN⟩, flush6_4 _, ?_⟩
  rw [mem_blk4]
  intro a
  match a with
  | ⟨0, _⟩ =>
    show win6_4.index ⟨(i 0).val / 10000, hN⟩ (0 : Fin 2) * 10000 ≤ (i 0).val ∧ (i 0).val < win6_4.index ⟨(i 0).val / 10000, hN⟩ (0 : Fin 2) * 10000 + 10000
    rw [e8]; show (i 0).val / 10000 * 10000 ≤ (i 0).val ∧ (i 0).val < (i 0).val / 10000 * 10000 + 10000; omega
  | ⟨1, _⟩ =>
    show win6_4.index ⟨(i 0).val / 10000, hN⟩ (1 : Fin 2) * 64 ≤ (i 1).val ∧ (i 1).val < win6_4.index ⟨(i 0).val / 10000, hN⟩ (1 : Fin 2) * 64 + 64
    rw [e9]; omega

/-- Window 4's array after the region: the new running sum of the arrays the region found. -/
theorem final4 (c : Dev nD) : (dat6 V c).arrAt 4 cfg6.N = newAcc (V c main_v90) (V c main_v93) (V c main_v74_1) :=
  (dat6 V c).arrAt_eq_of_cover 4 _ (fun t _ => flushed4_eq V c t) cover4

end Cert.KernelIdeal.Reg6

end
-- ==== Proof.ChainD.lean ====
/-
  The third layer and the end of the program read back: the layer as before, then the running sum divided by four and cut
  into its user rows and its item rows — the two results, at the reference's last stages of the arguments.
-/
import proofs.«130384_j68788196212816_2_alg».proof.Proof.Gen.KernelIdeal.Frame
import proofs.«130384_j68788196212816_2_alg».proof.Proof.ChainC
import proofs.«130384_j68788196212816_2_alg».proof.Proof.Region5
import proofs.«130384_j68788196212816_2_alg».proof.Proof.Region6
import proofs.«130384_j68788196212816_2_alg».proof.Proof.RefStages
import proofs.«130384_j68788196212816_2_alg».proof.Proof.LibTypedRefs

set_option maxRecDepth 16384
set_option quotPrecheck false

noncomputable section

namespace Cert.KernelIdeal.ChainD

open Cert.KernelIdeal Cert.KernelIdeal.Gen Idealize.ShloMosaic Idealize.ShloMosaic.TcCoe Idealize.SL.Sem Idealize.ShloMosaic.StableHlo
open Cert.ReferenceIdeal.Read (val_main_v0 val_main_v3 val_main_v5 val_main_v6 val_main_v8 val_main_v10 val_main_v14 val_main_v16 val_main_v17 val_main_v18 val_main_v19 val_main_v34 val_main_v36 val_main_v37 val_main_v50 val_main_v53 val_main_v55 val_main_v56 val_main_v58 val_main_v59 val_main_v72 val_main_v75 val_main_v77 val_main_v78 val_main_v80 val_main_v81 val_main_v94 val_main_v97 val_main_v99 val_main_v100 val_main_v102 val_main_v103 val_main_v104)
open Cert.Spec
open Cert.KernelIdeal.ChainC
variable (m : (ℓ : Loc nD τ sig) → Buf (Elt Ideal) ℓ) (ρ : Dev nD → PrngReg) (c : Dev nD)

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)

set_option maxHeartbeats 4000000 in
theorem w15_v76 : W15 m ρ c (Proc.devRef .tc main_v76) = val_main_v80 (F := Ideal) A6 := by
  have h0 := w14_arg6 m ρ c
  show StableHlo.after hostOps5 (W14 m ρ c) (Proc.devRef .tc main_v76) = _
  generalize W14 m ρ c = U at h0 ⊢
  after_results_simp
  rw [h0]
  rfl

set_option maxHeartbeats 4000000 in
theorem w15_v74_0 : W15 m ρ c (Proc.devRef .tc main_v74_0) = val_main_v77 (F := Ideal) A0 A1 A2 A3 A4 A5 A6 A7 := by
  have h0 := w14_v74_0 m ρ c
  show StableHlo.after hostOps5 (W14 m ρ c) (Proc.devRef .tc main_v74_0) = _
  generalize W14 m ρ c = U at h0 ⊢
  after_results_simp
  exact h0

set_option maxHeartbeats 4000000 in
theorem w15_v74_1 : W15 m ρ c (Proc.devRef .tc main_v74_1) = val_main_v78 (F := Ideal) A0 A1 A2 A3 A4 A5 A6 A7 := by
  have h0 := w14_v74_1 m ρ c
  show StableHlo.after hostOps5 (W14 m ρ c) (Proc.devRef .tc main_v74_1) = _
  generalize W14 m ρ c = U at h0 ⊢
  after_results_simp
  exact h0

set_option maxHeartbeats 4000000 in
theorem w15_v5 : W15 m ρ c (Proc.devRef .tc main_v5) = val_main_v8 (F := Ideal) A0 := by
  have h0 := w14_v5 m ρ c
  show StableHlo.after hostOps5 (W14 m ρ c) (Proc.devRef .tc main_v5) = _
  generalize W14 m ρ c = U at h0 ⊢
  after_results_simp
  exact h0

set_option maxHeartbeats 4000000 in
theorem w15_v7 : W15 m ρ c (Proc.devRef .tc main_v7) = val_main_v10 (F := Ideal) A0 := by
  have h0 := w14_v7 m ρ c
  show StableHlo.after hostOps5 (W14 m ρ c) (Proc.devRef .tc main_v7) = _
  generalize W14 m ρ c = U at h0 ⊢
  after_results_simp
  exact h0

set_option maxHeartbeats 4000000 in
theorem w15_v34 : W15 m ρ c (Proc.devRef .tc main_v34) = val_main_v34 (F := Ideal) A0 := by
  have h0 := w14_v34 m ρ c
  show StableHlo.after hostOps5 (W14 m ρ c) (Proc.devRef .tc main_v34) = _
  generalize W14 m ρ c = U at h0 ⊢
  after_results_simp
  exact h0

set_option maxHeartbeats 4000000 in
theorem w15_arg7 : W15 m ρ c (Proc.devRef .tc main_arg7) = A7 := by
  have h0 := w14_arg7 m ρ c
  show StableHlo.after hostOps5 (W14 m ρ c) (Proc.devRef .tc main_arg7) = _
  generalize W14 m ρ c = U at h0 ⊢
  after_results_simp
  exact h0

/-- Region 5's result is the reference's layer projection. -/
theorem w16_v77 : W16 m ρ c (Proc.devRef .tc main_v77) = val_main_v81 (F := Ideal) A0 A1 A2 A3 A4 A5 A6 A7 := by
  show W16 m ρ c (Proc.devRef .tc (Pipeline.arrRef spec5 2)) = _
  rw [W16_arr, Reg5.final (V15 m ρ) c]
  show matProd (W15 m ρ c (Proc.devRef .tc main_v74_0)) (W15 m ρ c (Proc.devRef .tc main_v76)) = _
  rw [w15_v74_0, w15_v76]
  exact (Cert.ReferenceIdeal.Stages.v81_eq _ _ _ _ _ _ _ _).symm

theorem w16_v74_1 : W16 m ρ c (Proc.devRef .tc main_v74_1) = val_main_v78 (F := Ideal) A0 A1 A2 A3 A4 A5 A6 A7 :=
  (W16_of_ne m ρ c main_v74_1 (by decide)).trans (w15_v74_1 m ρ c)

theorem w16_v5 : W16 m ρ c (Proc.devRef .tc main_v5) = val_main_v8 (F := Ideal) A0 :=
  (W16_of_ne m ρ c main_v5 (by decide)).trans (w15_v5 m ρ c)

theorem w16_v7 : W16 m ρ c (Proc.devRef .tc main_v7) = val_main_v10 (F := Ideal) A0 :=
  (W16_of_ne m ρ c main_v7 (by decide)).trans (w15_v7 m ρ c)

theorem w16_v34 : W16 m ρ c (Proc.devRef .tc main_v34) = val_main_v34 (F := Ideal) A0 :=
  (W16_of_ne m ρ c main_v34 (by decide)).trans (w15_v34 m ρ c)

theorem w16_arg7 : W16 m ρ c (Proc.devRef .tc main_arg7) = A7 :=
  (W16_of_ne m ρ c main_arg7 (by decide)).trans (w15_arg7 m ρ c)

set_option maxHeartbeats 4000000 in
theorem w17_v90 : W17 m ρ c (Proc.devRef .tc main_v90) = val_main_v94 (F := Ideal) A0 A1 A2 A3 A4 A5 A6 A7 := by
  have h0 := w16_v34 m ρ c
  have h1 := w16_v5 m ρ c
  have h2 := w16_v7 m ρ c
  have h3 := w16_v77 m ρ c
  show StableHlo.after hostOps6 (W16 m ρ c) (Proc.devRef .tc main_v90) = _
  generalize W16 m ρ c = U at h0 h1 h2 h3 ⊢
  after_results_simp
  rw [h0, h1, h2, h3]
  rfl

set_option maxHeartbeats 4000000 in
theorem w17_v93 : W17 m ρ c (Proc.devRef .tc main_v93) = val_main_v97 (F := Ideal) A7 := by
  have h0 := w16_arg7 m ρ c
  show StableHlo.after hostOps6 (W16 m ρ c) (Proc.devRef .tc main_v93) = _
  generalize W16 m ρ c = U at h0 ⊢
  after_results_simp
  rw [h0]
  exact row_of_vec _ _ _

set_option maxHeartbeats 4000000 in
theorem w17_v74_1 : W17 m ρ c (Proc.devRef .tc main_v74_1) = val_main_v78 (F := Ideal) A0 A1 A2 A3 A4 A5 A6 A7 := by
  have h0 := w16_v74_1 m ρ c
  show StableHlo.after hostOps6 (W16 m ρ c) (Proc.devRef .tc main_v74_1) = _
  generalize W16 m ρ c = U at h0 ⊢
  after_results_simp
  exact h0

/-- Region 6's running sum is the reference's. -/
theorem w18_v94_1 : W18 m ρ c (Proc.devRef .tc main_v94_1) = val_main_v100 (F := Ideal) A0 A1 A2 A3 A4 A5 A6 A7 := by
  show W18 m ρ c (Proc.devRef .tc (Pipeline.arrRef spec6 4)) = _
  rw [W18_arr, Reg6.final4 (V17 m ρ) c]
  show newAcc (W17 m ρ c (Proc.devRef .tc main_v90)) (W17 m ρ c (Proc.devRef .tc main_v93)) (W17 m ρ c (Proc.devRef .tc main_v74_1)) = _
  rw [w17_v90, w17_v93, w17_v74_1]
  exact (Cert.ReferenceIdeal.Stages.v100_eq _ _ _ _ _ _ _ _).symm

set_option maxHeartbeats 4000000 in
theorem w19_v97 : W19 m ρ c (Proc.devRef .tc main_v97) = val_main_v103 (F := Ideal) A0 A1 A2 A3 A4 A5 A6 A7 := by
  have h0 := w18_v94_1 m ρ c
  show StableHlo.after hostOps7 (W18 m ρ c) (Proc.devRef .tc main_v97) = _
  generalize W18 m ρ c = U at h0 ⊢
  after_results_simp
  rw [h0]
  rfl

set_option maxHeartbeats 4000000 in
theorem w19_v98 : W19 m ρ c (Proc.devRef .tc main_v98) = val_main_v104 (F := Ideal) A0 A1 A2 A3 A4 A5 A6 A7 := by
  have h0 := w18_v94_1 m ρ c
  show StableHlo.after hostOps7 (W18 m ρ c) (Proc.devRef .tc main_v98) = _
  generalize W18 m ρ c = U at h0 ⊢
  after_results_simp
  rw [h0]
  rfl

end Cert.KernelIdeal.ChainD

end
-- ==== Proof.KernelValue.lean ====
/-
  The idealized program's run with its two results named as the reference's last stages of the argument arrays.
-/
import proofs.«130384_j68788196212816_2_alg».proof.Proof.KernelRun
import proofs.«130384_j68788196212816_2_alg».proof.Proof.ChainD

set_option maxRecDepth 16384

noncomputable section

namespace Cert.KernelIdeal.ValueRun

open Cert.KernelIdeal Cert.KernelIdeal.Gen Idealize.ShloMosaic Idealize.ShloMosaic.TcCoe Idealize.SL.Sem
open Cert.ReferenceIdeal.Read (val_main_v103 val_main_v104)

variable (m : (ℓ : Loc nD τ sig) → Buf (Elt Ideal) ℓ) (ρ : Dev nD → PrngReg)

/-- Every weakly fair execution ends with the user rows and the item rows at the reference's two last stages of the
    arguments as launched, and the arguments unchanged. -/
theorem run_values : θ_run defs (onTc (τ := τ) (main (F := Ideal))) ⟨m, fun _ => 0, ρ⟩ (fun r => ∀ c : Dev nD,
      r.2.mem ((c.tc : Thread nD τ).loc main_v97) = val_main_v103 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread nD τ).loc main_v98) = val_main_v104 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c).1.trans (Cert.KernelIdeal.ChainD.w19_v97 m ρ c), (h c).2.1.trans (Cert.KernelIdeal.ChainD.w19_v98 m ρ c), (h c).2.2⟩)
    (run (F := Ideal) m ρ)

end Cert.KernelIdeal.ValueRun

end
-- ==== Proof.lean ====
/-
  The kernel (a feature-fusion matmul, then three rounds of "project, gather along the edges, scale by the symmetric degree
  normalisation, scatter-add onto the targets, add the bias, add into the running sum", then the mean over the four
  embeddings) against its jnp reference, on the extended reals.

  The two programs run the same host lines around the dense parts. The kernel computes the dense parts in seven pipelined
  regions: each region's result array, whatever the region finds in its operands, is the reference's corresponding stage
  as a function of those operands — a matmul tile by tile is the matmul (the change of float format before the product
  is the identity on extended reals, and a product into a zero accumulator is the plain sum over k), and the bias row added
  tile by tile is the bias added down every row. The only host-side difference is the guard in the degree normalisation:
  the kernel raises "the degree where it is positive, one elsewhere" to the power −1/2 and selects the result where the
  degree is positive; there the guarded degree is the degree. No law that needs finiteness is used, so the precondition is
  never opened. Reading the program back segment by segment, every buffer that is read later holds the reference's stage of
  the argument arrays; the two results are the reference's two last stages.
-/
import proofs.«130384_j68788196212816_2_alg».proof.Defs
import proofs.«130384_j68788196212816_2_alg».proof.Proof.Gen.Kernel
import proofs.«130384_j68788196212816_2_alg».proof.Proof.Gen.Kernel.Frame
import proofs.«130384_j68788196212816_2_alg».proof.Proof.Gen.KernelIdeal
import proofs.«130384_j68788196212816_2_alg».proof.Proof.Gen.KernelIdeal.Frame
import proofs.«130384_j68788196212816_2_alg».proof.Proof.Gen.ReferenceIdeal
import proofs.«130384_j68788196212816_2_alg».proof.Proof.Gen.Pre_finite_inputs
import proofs.«130384_j68788196212816_2_alg».proof.Proof.KernelValue
import proofs.«130384_j68788196212816_2_alg».proof.Proof.ReadP
import Idealize.ShloMosaic.Adequacy
import Idealize.ShloMosaic.Init

set_option maxRecDepth 16384

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, fun m ρ _ => ?_, trivial, ?_⟩
  · exact (θ_run Cert.ReferenceIdeal.defs _ _).mono (fun _ h c => (h c).2.2) (Cert.ReferenceIdeal.Value.run (F := Ideal) m ρ)
  · intro m ρ m' ρ' _ hagree
    refine ⟨_, _, Cert.KernelIdeal.ValueRun.run_values m ρ, ?_⟩
    refine (θ_run Cert.ReferenceIdeal.defs _ _).mono (fun _ h c => ?_) (Cert.ReferenceIdeal.Value.run (F := Ideal) m' ρ')
    obtain ⟨a0, a1, a2, a3, a4, a5, a6, a7⟩ := hagree c
    refine ⟨(h c).1.trans ?_, (h c).2.1.trans ?_, (h c).2.2⟩
    · rw [Cert.ReferenceIdeal.Read.val_main_v103_eq, a0, a1, a2, a3, a4, a5, a6, a7]
    · rw [Cert.ReferenceIdeal.Read.val_main_v104_eq, a0, a1, a2, a3, a4, a5, a6, a7]⟩

end Cert.Proof

end
